-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S4x512x512 : Shape := ⟨3, ![4, 512, 512]⟩
abbrev S3x128x128 : Shape := ⟨3, ![3, 128, 128]⟩
abbrev S384x128 : Shape := ⟨2, ![384, 128]⟩
abbrev S384 : Shape := ⟨1, ![384]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg5 : FVec F S384 .f32) (main_arg6 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  main_v28

def fn {F : FTy → Type} [FloatOps F] (main_arg0 : FVec F S4x512x128 .f32) (main_arg1 : IVec S4x512x512 32) (main_arg2 : FVec F S3x128x128 .f32) (main_arg3 : FVec F S384x128 .f32) (main_arg4 : FVec F S384x128 .f32) (main_arg5 : FVec F S384 .f32) (main_arg6 : FVec F S384 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_v13 main_v16
-- ==== Kernel.lean ====
abbrev S4x512x128 : Shape := ⟨3, ![4, 512, 128]⟩
abbrev S4x512x512 : Shape := ⟨3, ![4, 512, 512]⟩
abbrev S3x128x128 : Shape := ⟨3, ![3, 128, 128]⟩
abbrev S384x128 : Shape := ⟨2, ![384, 128]⟩
abbrev S384 : Shape := ⟨1, ![384]⟩
abbrev S1x384 : Shape := ⟨2, ![1, 384]⟩
abbrev S1x512x128 : Shape := ⟨3, ![1, 512, 128]⟩
abbrev S1x512x512 : Shape := ⟨3, ![1, 512, 512]⟩
abbrev S512x128 : Shape := ⟨2, ![512, 128]⟩
abbrev S1x128x128 : Shape := ⟨3, ![1, 128, 128]⟩
abbrev S128x128 : Shape := ⟨2, ![128, 128]⟩
abbrev S512x384 : Shape := ⟨2, ![512, 384]⟩
abbrev S512x512 : Shape := ⟨2, ![512, 512]⟩

abbrev nBuf : Space → Nat
  | .hbm => 10
  | .vmem => 11
  | .smem => 0
  | _ => 0

abbrev bufTy : (tb : Table) → Fin (tcTables nBuf tb) → BufTy
  | .hbm, ⟨0, _⟩ => ⟨S4x512x128, .f32⟩
  | .hbm, ⟨1, _⟩ => ⟨S4x512x512, .i32⟩
  | .hbm, ⟨2, _⟩ => ⟨S3x128x128, .f32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S1x384, .f32⟩
  | .hbm, ⟨8, _⟩ => ⟨S1x384, .f32⟩
  | .hbm, ⟨9, _⟩ => ⟨S4x512x128, .f32⟩
  | .local _ .vmem, ⟨0, _⟩ => ⟨S1x512x128, .f32⟩
  | .local _ .vmem, ⟨1, _⟩ => ⟨S1x512x128, .f32⟩
  | .local _ .vmem, ⟨2, _⟩ => ⟨S1x512x512, .i32⟩
  | .local _ .vmem, ⟨3, _⟩ => ⟨S1x512x512, .i32⟩
  | .local _ .vmem, ⟨4, _⟩ => ⟨S3x128x128, .f32⟩
  | .local _ .vmem, ⟨5, _⟩ => ⟨S384x128, .f32⟩
  | .local _ .vmem, ⟨6, _⟩ => ⟨S384x128, .f32⟩
  | .local _ .vmem, ⟨7, _⟩ => ⟨S1x384, .f32⟩
  | .local _ .vmem, ⟨8, _⟩ => ⟨S1x384, .f32⟩
  | .local _ .vmem, ⟨9, _⟩ => ⟨S1x512x128, .f32⟩
  | .local _ .vmem, ⟨10, _⟩ => ⟨S1x512x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S384_S1x384 : S384.ShapeCasts S1x384
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x512x512_S1x512x512_0_0_0 : ∀ a, (![0, 0, 0] : Fin 3 → Nat) a + S1x512x512.size a ≤ S1x512x512.size a
  h_S1x512x512 : 0 < S1x512x512.numel
  bitsLt_bf16_f32 : FTy.bits .bf16 < FTy.bits .f32
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S384x128_S384x128_0_0 : ∀ a, (![0, 0] : Fin 2 → Nat) a + S384x128.size a ≤ S384x128.size a
  h_S384x128 : 0 < S384x128.numel
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  broadcasts_S1x384_S512x384 : S1x384.Broadcasts S512x384
  shapeCasts_S1x512x512_S512x512 : S1x512x512.ShapeCasts S512x512
  slices_S512x384_o0_0_S512x128 : S512x384.Slices ![0, 0] S512x128
  slices_S512x384_o0_128_S512x128 : S512x384.Slices ![0, 128] S512x128
  slices_S512x384_o0_256_S512x128 : S512x384.Slices ![0, 256] S512x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  shapeCasts_S512x128_S1x512x128 : S512x128.ShapeCasts S1x512x128
  dot_S512x128_S128x128_S512x128_1_0_0_1_n_n_wf : DotDims.WF S512x128 S128x128 S512x128 [1] [0] [0] [1] [] []
  dot_S512x128_S384x128_S512x384_1_1_0_0_n_n_wf : DotDims.WF S512x128 S384x128 S512x384 [1] [1] [0] [0] [] []
  dot_S512x512_S512x128_S512x128_0_0_1_1_n_n_wf : DotDims.WF S512x512 S512x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x512x128.size a
  hwx0_0 : ∀ i : grid0.Coords, EltTy.bits .f32 = 32 ∨ (Rect.block (s := S4x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x512x512.size a
  hwx0_1 : ∀ i : grid0.Coords, EltTy.bits .i32 = 32 ∨ (Rect.block (s := S4x512x512) S1x512x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x128.size a ≤ S384x128.size a
  hwx0_4 : ∀ i : grid0.Coords, EltTy.bits .f32 = 32 ∨ (Rect.block (s := S384x128) S384x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x128.size a ≤ S4x512x128.size a
  hwx0_7 : ∀ i : grid0.Coords, EltTy.bits .f32 = 32 ∨ (Rect.block (s := S4x512x128) S1x512x128.size (cc0_transform_7 i) (hinb0_7 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S384x128_S512x384_1_1_0_0_n_n : DotDims S512x128 S384x128 S512x384 where
  lhsContracting := [1]
  rhsContracting := [1]
  lhsNonContracting := [0]
  rhsNonContracting := [0]
  lhsBatch := []
  rhsBatch := []
  wf := dot_S512x128_S384x128_S512x384_1_1_0_0_n_n_wf
def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S4x512x512 : Shape := ⟨3, ![4, 512, 512]⟩
abbrev S3x128x128 : Shape := ⟨3, ![3, 128, 128]⟩
abbrev S384x128 : Shape := ⟨2, ![384, 128]⟩
abbrev S384 : Shape := ⟨1, ![384]⟩
abbrev S2048x128 : Shape := ⟨2, ![2048, 128]⟩
abbrev S1x128x128 : Shape := ⟨3, ![1, 128, 128]⟩
abbrev S128x128 : Shape := ⟨2, ![128, 128]⟩
abbrev S128x384 : Shape := ⟨2, ![128, 384]⟩
abbrev S2048x384 : Shape := ⟨2, ![2048, 384]⟩
abbrev S1x384 : Shape := ⟨2, ![1, 384]⟩
abbrev S_ : Shape := ⟨0, ![]⟩

abbrev nBuf : Space → Nat
  | .hbm => 157
  | .vmem => 0
  | .smem => 0
  | _ => 0

abbrev hbmTy0_0 (i : Nat) : BufTy := match i % 128 with
  | 0 => ⟨S4x512x128, .f32⟩
  | 1 => ⟨S4x512x512, .i32⟩
  | 2 => ⟨S3x128x128, .f32⟩
  | 3 => ⟨S384x128, .f32⟩
  | 4 => ⟨S384x128, .f32⟩
  | 5 => ⟨S384, .f32⟩
  | 6 => ⟨S384, .f32⟩
  | 7 => ⟨S4x512x512, .f32⟩
  | 8 => ⟨S2048x128, .f32⟩
  | 9 => ⟨S1x128x128, .f32⟩
  | 10 => ⟨S128x128, .f32⟩
  | 11 => ⟨S2048x128, .f32⟩
  | 12 => ⟨S4x512x128, .f32⟩
  | 13 => ⟨S4x512x128, .f32⟩
  | 14 => ⟨S2048x128, .f32⟩
  | 15 => ⟨S128x384, .f32⟩
  | 16 => ⟨S2048x384, .f32⟩
  | 17 => ⟨S1x384, .f32⟩
  | 18 => ⟨S2048x384, .f32⟩
  | 19 => ⟨S2048x384, .f32⟩
  | 20 => ⟨S128x384, .f32⟩
  | 21 => ⟨S2048x384, .f32⟩
  | 22 => ⟨S1x384, .f32⟩
  | 23 => ⟨S2048x384, .f32⟩
  | 24 => ⟨S2048x384, .f32⟩
  | 25 => ⟨S2048x128, .f32⟩
  | 26 => ⟨S2048x128, .f32⟩
  | 27 => ⟨S2048x128, .f32⟩
  | 28 => ⟨S2048x128, .f32⟩
  | 29 => ⟨S2048x128, .f32⟩
  | 30 => ⟨S2048x128, .f32⟩
  | 31 => ⟨S2048x128, .f32⟩
  | 32 => ⟨S2048x128, .f32⟩
  | 33 => ⟨S2048x128, .f32⟩
  | 34 => ⟨S_, .f32⟩
  | 35 => ⟨S2048x128, .f32⟩
  | 36 => ⟨S2048x128, .f32⟩
  | 37 => ⟨S_, .f32⟩
  | 38 => ⟨S2048x128, .f32⟩
  | 39 => ⟨S2048x128, .f32⟩
  | 40 => ⟨S2048x128, .f32⟩
  | 41 => ⟨S2048x128, .f32⟩
  | 42 => ⟨S2048x128, .f32⟩
  | 43 => ⟨S_, .f32⟩
  | 44 => ⟨S2048x128, .f32⟩
  | 45 => ⟨S2048x128, .f32⟩
  | 46 => ⟨S_, .f32⟩
  | 47 => ⟨S2048x128, .f32⟩
  | 48 => ⟨S2048x128, .f32⟩
  | 49 => ⟨S2048x128, .f32⟩
  | 50 => ⟨S2048x128, .f32⟩
  | 51 => ⟨S2048x128, .f32⟩
  | 52 => ⟨S_, .f32⟩
  | 53 => ⟨S2048x128, .f32⟩
  | 54 => ⟨S2048x128, .f32⟩
  | 55 => ⟨S2048x128, .f32⟩
  | 56 => ⟨S2048x128, .f32⟩
  | 57 => ⟨S2048x128, .f32⟩
  | 58 => ⟨S1x128x128, .f32⟩
  | 59 => ⟨S128x128, .f32⟩
  | 60 => ⟨S2048x128, .f32⟩
  | 61 => ⟨S4x512x128, .f32⟩
  | 62 => ⟨S4x512x128, .f32⟩
  | 63 => ⟨S2048x128, .f32⟩
  | 64 => ⟨S128x384, .f32⟩
  | 65 => ⟨S2048x384, .f32⟩
  | 66 => ⟨S1x384, .f32⟩
  | 67 => ⟨S2048x384, .f32⟩
  | 68 => ⟨S2048x384, .f32⟩
  | 69 => ⟨S128x384, .f32⟩
  | 70 => ⟨S2048x384, .f32⟩
  | 71 => ⟨S1x384, .f32⟩
  | 72 => ⟨S2048x384, .f32⟩
  | 73 => ⟨S2048x384, .f32⟩
  | 74 => ⟨S2048x128, .f32⟩
  | 75 => ⟨S2048x128, .f32⟩
  | 76 => ⟨S2048x128, .f32⟩
  | 77 => ⟨S2048x128, .f32⟩
  | 78 => ⟨S2048x128, .f32⟩
  | 79 => ⟨S2048x128, .f32⟩
  | 80 => ⟨S2048x128, .f32⟩
  | 81 => ⟨S2048x128, .f32⟩
  | 82 => ⟨S2048x128, .f32⟩
  | 83 => ⟨S_, .f32⟩
  | 84 => ⟨S2048x128, .f32⟩
  | 85 => ⟨S2048x128, .f32⟩
  | 86 => ⟨S_, .f32⟩
  | 87 => ⟨S2048x128, .f32⟩
  | 88 => ⟨S2048x128, .f32⟩
  | 89 => ⟨S2048x128, .f32⟩
  | 90 => ⟨S2048x128, .f32⟩
  | 91 => ⟨S2048x128, .f32⟩
  | 92 => ⟨S_, .f32⟩
  | 93 => ⟨S2048x128, .f32⟩
  | 94 => ⟨S2048x128, .f32⟩
  | 95 => ⟨S_, .f32⟩
  | 96 => ⟨S2048x128, .f32⟩
  | 97 => ⟨S2048x128, .f32⟩
  | 98 => ⟨S2048x128, .f32⟩
  | 99 => ⟨S2048x128, .f32⟩
  | 100 => ⟨S2048x128, .f32⟩
  | 101 => ⟨S_, .f32⟩
  | 102 => ⟨S2048x128, .f32⟩
  | 103 => ⟨S2048x128, .f32⟩
  | 104 => ⟨S2048x128, .f32⟩
  | 105 => ⟨S2048x128, .f32⟩
  | 106 => ⟨S2048x128, .f32⟩
  | 107 => ⟨S1x128x128, .f32⟩
  | 108 => ⟨S128x128, .f32⟩
  | 109 => ⟨S2048x128, .f32⟩
  | 110 => ⟨S4x512x128, .f32⟩
  | 111 => ⟨S4x512x128, .f32⟩
  | 112 => ⟨S2048x128, .f32⟩
  | 113 => ⟨S128x384, .f32⟩
  | 114 => ⟨S2048x384, .f32⟩
  | 115 => ⟨S1x384, .f32⟩
  | 116 => ⟨S2048x384, .f32⟩
  | 117 => ⟨S2048x384, .f32⟩
  | 118 => ⟨S128x384, .f32⟩
  | 119 => ⟨S2048x384, .f32⟩
  | 120 => ⟨S1x384, .f32⟩
  | 121 => ⟨S2048x384, .f32⟩
  | 122 => ⟨S2048x384, .f32⟩
  | 123 => ⟨S2048x128, .f32⟩
  | 124 => ⟨S2048x128, .f32⟩
  | 125 => ⟨S2048x128, .f32⟩
  | 126 => ⟨S2048x128, .f32⟩
  | 127 => ⟨S2048x128, .f32⟩
  | _ => ⟨S4x512x128, .f32⟩

abbrev hbmTy0_1 (i : Nat) : BufTy := match i % 128 with
  | 0 => ⟨S2048x128, .f32⟩
  | 1 => ⟨S2048x128, .f32⟩
  | 2 => ⟨S2048x128, .f32⟩
  | 3 => ⟨S2048x128, .f32⟩
  | 4 => ⟨S_, .f32⟩
  | 5 => ⟨S2048x128, .f32⟩
  | 6 => ⟨S2048x128, .f32⟩
  | 7 => ⟨S_, .f32⟩
  | 8 => ⟨S2048x128, .f32⟩
  | 9 => ⟨S2048x128, .f32⟩
  | 10 => ⟨S2048x128, .f32⟩
  | 11 => ⟨S2048x128, .f32⟩
  | 12 => ⟨S2048x128, .f32⟩
  | 13 => ⟨S_, .f32⟩
  | 14 => ⟨S2048x128, .f32⟩
  | 15 => ⟨S2048x128, .f32⟩
  | 16 => ⟨S_, .f32⟩
  | 17 => ⟨S2048x128, .f32⟩
  | 18 => ⟨S2048x128, .f32⟩
  | 19 => ⟨S2048x128, .f32⟩
  | 20 => ⟨S2048x128, .f32⟩
  | 21 => ⟨S2048x128, .f32⟩
  | 22 => ⟨S_, .f32⟩
  | 23 => ⟨S2048x128, .f32⟩
  | 24 => ⟨S2048x128, .f32⟩
  | 25 => ⟨S2048x128, .f32⟩
  | 26 => ⟨S2048x128, .f32⟩
  | 27 => ⟨S2048x128, .f32⟩
  | 28 => ⟨S4x512x128, .f32⟩
  | _ => ⟨S4x512x128, .f32⟩

abbrev hbmTy (i : Nat) : BufTy := match i / 128 with
  | 0 => hbmTy0_0 i
  | 1 => hbmTy0_1 i
  | _ => ⟨S4x512x128, .f32⟩

abbrev bufTy : (tb : Table) → Fin (tcTables nBuf tb) → BufTy
  | .hbm, ⟨i, _⟩ => hbmTy i
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_4 : Ref sig .tc := ⟨.hbm, 83, rfl⟩
abbrev main_v71 : Ref sig .tc := ⟨.hbm, 84, rfl⟩
abbrev main_v72 : Ref sig .tc := ⟨.hbm, 85, rfl⟩
abbrev main_cst_5 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_6 : Ref sig .tc := ⟨.hbm, 92, rfl⟩
abbrev main_v78 : Ref sig .tc := ⟨.hbm, 93, rfl⟩
abbrev main_v79 : Ref sig .tc := ⟨.hbm, 94, rfl⟩
abbrev main_cst_7 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_8 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_9 : Ref sig .tc := ⟨.hbm, 132, rfl⟩
abbrev main_v115 : Ref sig .tc := ⟨.hbm, 133, rfl⟩
abbrev main_v116 : Ref sig .tc := ⟨.hbm, 134, rfl⟩
abbrev main_cst_10 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_11 : Ref sig .tc := ⟨.hbm, 141, rfl⟩
abbrev main_v122 : Ref sig .tc := ⟨.hbm, 142, rfl⟩
abbrev main_v123 : Ref sig .tc := ⟨.hbm, 143, rfl⟩
abbrev main_cst_12 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_13 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩

abbrev nD : Nat := 1
abbrev τ : Topo := Topo.v7x

variable {F : FTy → Type} [FloatOps F]

class Facts₀ : Prop where
  shapeCasts_S4x512x128_S2048x128 : S4x512x128.ShapeCasts S2048x128
  slices_S3x128x128_S1x128x128_0_0_0 : S3x128x128.Slices ![0, 0, 0] S1x128x128
  shapeCasts_S1x128x128_S128x128 : S1x128x128.ShapeCasts S128x128
  shapeCasts_S2048x128_S4x512x128 : S2048x128.ShapeCasts S4x512x128
  transposes_S384x128_S128x384_1_0 : S384x128.Transposes [1, 0] S128x384
  bcast_S384_S1x384_1 : S384.BroadcastsInDim S1x384 (![1] : Fin 1 → Fin S1x384.rank)
  bcast_S1x384_S2048x384_0_1 : S1x384.BroadcastsInDim S2048x384 (![0, 1] : Fin 2 → Fin S2048x384.rank)
  slices_S2048x384_S2048x128_0_0 : S2048x384.Slices ![0, 0] S2048x128
  slices_S2048x384_S2048x128_0_128 : S2048x384.Slices ![0, 128] S2048x128
  slices_S2048x384_S2048x128_0_256 : S2048x384.Slices ![0, 256] S2048x128
  bcast_S_S2048x128 : S_.BroadcastsInDim S2048x128 (![] : Fin 0 → Fin S2048x128.rank)
  slices_S3x128x128_S1x128x128_1_0_0 : S3x128x128.Slices ![1, 0, 0] S1x128x128
  slices_S3x128x128_S1x128x128_2_0_0 : S3x128x128.Slices ![2, 0, 0] S1x128x128
  dot_S2048x128_S128x128_S2048x128_1_0_0_1_n_n_wf : DotDims.WF S2048x128 S128x128 S2048x128 [1] [0] [0] [1] [] []
  dot_S4x512x512_S4x512x128_S4x512x128_1_1_2_2_0_0_wf : DotDims.WF S4x512x512 S4x512x128 S4x512x128 [1] [1] [2] [2] [0] [0]
  dot_S2048x128_S128x384_S2048x384_1_0_0_1_n_n_wf : DotDims.WF S2048x128 S128x384 S2048x384 [1] [0] [0] [1] [] []

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S4x512x512_S4x512x128_S4x512x128_1_1_2_2_0_0 : DotDims S4x512x512 S4x512x128 S4x512x128 where
  lhsContracting := [1]
  rhsContracting := [1]
  lhsNonContracting := [2]
  rhsNonContracting := [2]
  lhsBatch := [0]
  rhsBatch := [0]
  wf := dot_S4x512x512_S4x512x128_S4x512x128_1_1_2_2_0_0_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

class Facts : Prop extends Facts₀ where

variable [Facts]
-- ==== Proof.Spec.lean ====
/-
  Three rounds of a gated update on the nodes of one graph, as a function on the extended reals.

  A graph has 512 nodes, each carrying a state row of 128 entries; A j i is the weight of the edge from node j to
  node i. One round, from the node states h:

      m     = h · W                       a message per node                      (msg)
      a i   = ∑ j, A j i * m j            the messages summed over incoming edges  (agg)
      gi    = a · Wihᵀ + bih              three gate pre-activations per entry     (gate)
      gh    = h · Whhᵀ + bhh
      r     = σ (gi_r + gh_r)             the reset gate
      z     = σ (gi_z + gh_z)             the update gate
      n     = tanh (gi_n + r * gh_n)      the candidate state
      h'    = a blend of n and h by z

  The logistic function σ and the blend are written in two ways, which agree on real numbers but are different
  expressions on the extended reals:

      σ s = 1/2 * tanh (1/2 * s) + 1/2      and   h' = h + (1 - z) * (n - h)          (cellT)
      σ s = 1 / (1 + exp (-s))              and   h' = (1 - z) * n + z * h            (cellE)

  `net` is three rounds with three message matrices, and `G` the same for a batch of four graphs stored as whole
  arrays, the edge weights given as integer words. Nothing here depends on a program.
-/
import Idealize.ShloMosaic.PureOps.Ideal
import Idealize.ShloMosaic.Lib.ValueIdx

noncomputable section

open scoped BigOperators

namespace Cert.GatedGraph

open Idealize.ShloMosaic Idealize.ShloMosaic.ValueIdx

/-- A matrix of extended reals. -/
abbrev Mat (a b : ℕ) := Fin a → Fin b → EReal

/-- An extended real that is a real number. -/
def IsR (x : EReal) : Prop := ∃ r : ℝ, x = (r : EReal)

/-- One half, as the float literal that denotes it. -/
def half : EReal := Ideal.ofBits .f32 0x3F000000#32
/-- One, as the float literal that denotes it. -/
def one : EReal := Ideal.ofBits .f32 0x3F800000#32

/-- A message per node: m j k = ∑ d, h j d * W d k. -/
def msg (h : Mat 512 128) (W : Mat 128 128) : Mat 512 128 := fun j k => ∑ d : Fin 128, h j d * W d k

/-- The messages summed over incoming edges: a i k = ∑ j, A j i * m j k. -/
def agg (A : Mat 512 512) (m : Mat 512 128) : Mat 512 128 := fun i k => ∑ j : Fin 512, A j i * m j k

/-- Gate pre-activations: g i c = (∑ k, u i k * Wg c k) + b c. -/
def gate (u : Mat 512 128) (Wg : Mat 384 128) (b : Fin 384 → EReal) : Mat 512 384 :=
  fun i c => (∑ k : Fin 128, u i k * Wg c k) + b c

/-- Column d of the reset-gate third of the 384 gate columns. -/
def colR (d : Fin 128) : Fin 384 := ⟨d.val, by have := d.isLt; omega⟩
/-- Column d of the update-gate third. -/
def colZ (d : Fin 128) : Fin 384 := ⟨128 + d.val, by have := d.isLt; omega⟩
/-- Column d of the candidate third. -/
def colN (d : Fin 128) : Fin 384 := ⟨256 + d.val, by have := d.isLt; omega⟩

/-- The logistic function through the hyperbolic tangent. -/
def sigT (s : EReal) : EReal := half * Ideal.tanh (half * s) + half
/-- The logistic function through the exponential. -/
def sigE (s : EReal) : EReal := Ideal.div one (one + Ideal.exp (-s))

/-- One entry's new state, the gates through tanh and the blend as h + (1 - z) * (n - h). -/
def cellT (ir hr iz hz inn hn h : EReal) : EReal :=
  h + (one - sigT (iz + hz)) * (Ideal.tanh (inn + sigT (ir + hr) * hn) - h)

/-- One entry's new state, the gates through exp and the blend as (1 - z) * n + z * h. -/
def cellE (ir hr iz hz inn hn h : EReal) : EReal :=
  (one - sigE (iz + hz)) * Ideal.tanh (inn + sigE (ir + hr) * hn) + sigE (iz + hz) * h

/-- One round on one graph, with either form of the cell. -/
def step (cell : EReal → EReal → EReal → EReal → EReal → EReal → EReal → EReal)
    (A : Mat 512 512) (W : Mat 128 128) (Wih Whh : Mat 384 128) (bih bhh : Fin 384 → EReal) (h : Mat 512 128) :
    Mat 512 128 :=
  fun i d =>
    cell (gate (agg A (msg h W)) Wih bih i (colR d)) (gate h Whh bhh i (colR d))
      (gate (agg A (msg h W)) Wih bih i (colZ d)) (gate h Whh bhh i (colZ d))
      (gate (agg A (msg h W)) Wih bih i (colN d)) (gate h Whh bhh i (colN d)) (h i d)

/-- Three rounds on one graph, round l with message matrix W l. -/
def net (cell : EReal → EReal → EReal → EReal → EReal → EReal → EReal → EReal)
    (A : Mat 512 512) (W : Fin 3 → Mat 128 128) (Wih Whh : Mat 384 128) (bih bhh : Fin 384 → EReal) (x : Mat 512 128) :
    Mat 512 128 :=
  step cell A (W 2) Wih Whh bih bhh (step cell A (W 1) Wih Whh bih bhh (step cell A (W 0) Wih Whh bih bhh x))

/-- Graph b's edge weights out of the batch's integer words. -/
def edges (adj : (⟨3, ![4, 512, 512]⟩ : Shape).Idx → BitVec 32) (b : Fin 4) : Mat 512 512 :=
  fun j i => (((adj (ix3 b j i)).toInt : ℝ) : EReal)

/-- The batch of four graphs as whole arrays: entry (b, i, d) of the result is entry (i, d) of three rounds on
    graph b. -/
def G (cell : EReal → EReal → EReal → EReal → EReal → EReal → EReal → EReal)
    (x : (⟨3, ![4, 512, 128]⟩ : Shape).Idx → EReal) (adj : (⟨3, ![4, 512, 512]⟩ : Shape).Idx → BitVec 32)
    (W : (⟨3, ![3, 128, 128]⟩ : Shape).Idx → EReal) (Wih Whh : (⟨2, ![384, 128]⟩ : Shape).Idx → EReal)
    (bih bhh : (⟨1, ![384]⟩ : Shape).Idx → EReal) : (⟨3, ![4, 512, 128]⟩ : Shape).Idx → EReal :=
  fun idx =>
    net cell (edges adj (idx 0)) (fun l d k => W (ix3 l d k)) (fun c k => Wih (ix2 c k)) (fun c k => Whh (ix2 c k))
      (fun c => bih (ix1 c)) (fun c => bhh (ix1 c)) (fun i d => x (ix3 (idx 0) i d)) (idx 1) (idx 2)

end Cert.GatedGraph

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.KernelRound.lean ====
/-
  One round of the gated update as the kernel body computes it on one graph's block, read entry by entry.

  The body keeps the node states h as a [512,128] vector. A round forms  gh = h·Whhᵀ + bhh,  the messages
  m = h·W, their sums over incoming edges  a = Aᵀ·m  (a product contracting the FIRST axis of both operands),
  gi = a·Wihᵀ + bih  (products contracting the LAST axis of both operands), then the three column thirds of gi and
  gh give the gates through tanh, and the new state is  h + (1 - z)·(n - h).  Changes of float format are the
  identity on the extended reals. Read at an entry (i, d), the round is Spec's `step cellT` of the matrices the
  vectors hold.
-/
import proofs.«109102_g13975823582136_cont_week2b_684_16_alg».proof.Proof.Gen.KernelIdeal.Value
import proofs.«109102_g13975823582136_cont_week2b_684_16_alg».proof.Proof.Spec
import proofs.«109102_g13975823582136_cont_week2b_684_16_alg».proof.Proof.LibContract
import Idealize.ShloMosaic.Lib.ValueLayout
import Idealize.ShloMosaic.Lib.Pipeline.Value

noncomputable section

open scoped BigOperators

namespace Cert.KernelIdeal.Round

open Cert.KernelIdeal Cert.KernelIdeal.Facts₀ Idealize.ShloMosaic Idealize.ShloMosaic.ValueIdx Cert.GatedGraph Cert.Lib.Contract

/-! ## The three products at an entry -/

/-- States times a message matrix: entry (i, k) is ∑ d, l (i, d) * r (d, k). -/
theorem mm_msg {φ₁ φ₂ : FTy} (l : FVec Ideal S512x128 φ₁) (r : FVec Ideal S128x128 φ₂) (i : Fin 512) (k : Fin 128) :
    matmul dot_S512x128_S128x128_S512x128_1_0_0_1_n_n none l r (constant S512x128 .f32 0x00000000#32) (ix2 i k)
      = ∑ d : Fin 128, l (ix2 i d) * r (ix2 d k) :=
  matmul_zero_single dot_S512x128_S128x128_S512x128_1_0_0_1_n_n none 128 rfl rfl l r (ix2 i k)
    (fun d => ix2 i d) (fun d => ix2 d k)
    (fun d q hq => funext fun a => Fin.ext (by
      match a with
      | ⟨0, _⟩ => rfl
      | ⟨1, _⟩ => exact (dot_S512x128_S128x128_S512x128_1_0_0_1_n_n.lhsIdx_val_of_single rfl (ix2 i k) q).trans hq))
    (fun d q hq => funext fun a => Fin.ext (by
      match a with
      | ⟨0, _⟩ => exact (dot_S512x128_S128x128_S512x128_1_0_0_1_n_n.rhsIdx_val_of_single rfl (ix2 i k) q).trans hq
      | ⟨1, _⟩ => rfl))

/-- A matrix times the transpose of a gate matrix: entry (i, c) is ∑ k, l (i, k) * r (c, k). -/
theorem mm_gate {φ₁ φ₂ : FTy} (l : FVec Ideal S512x128 φ₁) (r : FVec Ideal S384x128 φ₂) (i : Fin 512) (c : Fin 384) :
    matmul dot_S512x128_S384x128_S512x384_1_1_0_0_n_n none l r (constant S512x384 .f32 0x00000000#32) (ix2 i c)
      = ∑ k : Fin 128, l (ix2 i k) * r (ix2 c k) :=
  matmul_zero_single dot_S512x128_S384x128_S512x384_1_1_0_0_n_n none 128 rfl rfl l r (ix2 i c)
    (fun k => ix2 i k) (fun k => ix2 c k)
    (fun k q hq => funext fun a => Fin.ext (by
      match a with
      | ⟨0, _⟩ => rfl
      | ⟨1, _⟩ => exact (dot_S512x128_S384x128_S512x384_1_1_0_0_n_n.lhsIdx_val_of_single rfl (ix2 i c) q).trans hq))
    (fun k q hq => funext fun a => Fin.ext (by
      match a with
      | ⟨0, _⟩ => rfl
      | ⟨1, _⟩ => exact (dot_S512x128_S384x128_S512x384_1_1_0_0_n_n.rhsIdx_val_of_single rfl (ix2 i c) q).trans hq))

/-- The transpose of the edge matrix times the messages: entry (i, k) is ∑ j, l (j, i) * r (j, k). -/
theorem mm_agg {φ₁ φ₂ : FTy} (l : FVec Ideal S512x512 φ₁) (r : FVec Ideal S512x128 φ₂) (i : Fin 512) (k : Fin 128) :
    matmul dot_S512x512_S512x128_S512x128_0_0_1_1_n_n none l r (constant S512x128 .f32 0x00000000#32) (ix2 i k)
      = ∑ j : Fin 512, l (ix2 j i) * r (ix2 j k) :=
  matmul_zero_single dot_S512x512_S512x128_S512x128_0_0_1_1_n_n none 512 rfl rfl l r (ix2 i k)
    (fun j => ix2 j i) (fun j => ix2 j k)
    (fun j q hq => funext fun a => Fin.ext (by
      match a with
      | ⟨0, _⟩ => exact (dot_S512x512_S512x128_S512x128_0_0_1_1_n_n.lhsIdx_val_of_single rfl (ix2 i k) q).trans hq
      | ⟨1, _⟩ => rfl))
    (fun j q hq => funext fun a => Fin.ext (by
      match a with
      | ⟨0, _⟩ => exact (dot_S512x512_S512x128_S512x128_0_0_1_1_n_n.rhsIdx_val_of_single rfl (ix2 i k) q).trans hq
      | ⟨1, _⟩ => rfl))

/-! ## The round as the body spells it -/

/-- Gate pre-activations: u · wgᵀ into a zero accumulator, plus the bias row broadcast over the nodes. -/
def kGate (u : FVec Ideal S512x128 .bf16) (wg : FVec Ideal S384x128 .bf16) (b : FVec Ideal S1x384 .f32) : FVec Ideal S512x384 .f32 :=
  addf (matmul dot_S512x128_S384x128_S512x384_1_1_0_0_n_n none u wg (constant S512x384 .f32 0x00000000#32))
    (broadcastTo S512x384 b broadcasts_S1x384_S512x384)

/-- The messages h·W summed over incoming edges, Aᵀ·(h·W). -/
def kAgg (hb : FVec Ideal S512x128 .bf16) (Wl : Vec Ideal S1x128x128 .f32) (A : FVec Ideal S1x512x512 .bf16) : FVec Ideal S512x128 .bf16 :=
  truncf .bf16
    (matmul dot_S512x512_S512x128_S512x128_0_0_1_1_n_n none (shapeCast S512x512 A shapeCasts_S1x512x512_S512x512)
      (truncf .bf16
        (matmul dot_S512x128_S128x128_S512x128_1_0_0_1_n_n none hb
          (truncf .bf16 (shapeCast S128x128 Wl shapeCasts_S1x128x128_S128x128) bitsLt_bf16_f32)
          (constant S512x128 .f32 0x00000000#32))
        bitsLt_bf16_f32)
      (constant S512x128 .f32 0x00000000#32))
    bitsLt_bf16_f32

/-- One half, splat over the states' shape. -/
def bHalf : FVec Ideal S512x128 .f32 := broadcast S512x128 (Scalar.ofBits .f32 0x3F000000#32)

/-- The logistic gate of one column third, through tanh: 1/2 * tanh (1/2 * (gi + gh)) + 1/2. -/
def kSig (gi gh : FVec Ideal S512x128 .f32) : FVec Ideal S512x128 .f32 :=
  addf (mulf bHalf (tanh (mulf bHalf (addf gi gh)))) bHalf

/-- The new states from the old ones and the two gate arrays: h + (1 - z) * (n - h). -/
def kBlend (h : FVec Ideal S512x128 .f32) (gh gi : FVec Ideal S512x384 .f32) : FVec Ideal S512x128 .f32 :=
  addf h
    (mulf
      (subf (broadcast S512x128 (Scalar.ofBits .f32 0x3F800000#32))
        (kSig (extractStridedSlice S512x128 ![0, 128] gi slices_S512x384_o0_128_S512x128)
          (extractStridedSlice S512x128 ![0, 128] gh slices_S512x384_o0_128_S512x128)))
      (subf
        (tanh (addf (extractStridedSlice S512x128 ![0, 256] gi slices_S512x384_o0_256_S512x128)
          (mulf
            (kSig (extractStridedSlice S512x128 ![0, 0] gi slices_S512x384_o0_0_S512x128)
              (extractStridedSlice S512x128 ![0, 0] gh slices_S512x384_o0_0_S512x128))
            (extractStridedSlice S512x128 ![0, 256] gh slices_S512x384_o0_256_S512x128))))
        h))

/-- One round on the block: the states h, the edge words' values A, the round's message matrix Wl, the gate
    matrices and bias rows. -/
def kRound (h : FVec Ideal S512x128 .f32) (A : FVec Ideal S1x512x512 .bf16) (Wl : Vec Ideal S1x128x128 .f32)
    (wih whh : FVec Ideal S384x128 .bf16) (bih bhh : FVec Ideal S1x384 .f32) : FVec Ideal S512x128 .f32 :=
  kBlend h (kGate (truncf .bf16 h bitsLt_bf16_f32) whh bhh)
    (kGate (kAgg (truncf .bf16 h bitsLt_bf16_f32) Wl A) wih bih)

/-! ## The round at an entry -/

theorem kGate_apply (u : FVec Ideal S512x128 .bf16) (wg : FVec Ideal S384x128 .bf16) (b : FVec Ideal S1x384 .f32)
    (i : Fin 512) (c : Fin 384) :
    kGate u wg b (ix2 i c) = gate (fun i k => u (ix2 i k)) (fun c k => wg (ix2 c k)) (fun c => b (ix2 (0 : Fin 1) c)) i c := by
  unfold kGate gate
  rw [addf_apply, mm_gate, broadcastTo_1b_ab_apply]

theorem kAgg_apply (hb : FVec Ideal S512x128 .bf16) (Wl : Vec Ideal S1x128x128 .f32) (A : FVec Ideal S1x512x512 .bf16)
    (i : Fin 512) (k : Fin 128) :
    kAgg hb Wl A (ix2 i k)
      = agg (fun j i => A (ix3 (0 : Fin 1) j i)) (msg (fun j d => hb (ix2 j d)) (fun d k => Wl (ix3 (0 : Fin 1) d k))) i k := by
  unfold kAgg agg msg
  rw [truncf_apply, mm_agg]
  refine Finset.sum_congr rfl fun j _ => ?_
  rw [shapeCast_1ab_ab_apply, truncf_apply, mm_msg]
  refine congrArg (A (ix3 (0 : Fin 1) j i) * ·) (Finset.sum_congr rfl fun d _ => ?_)
  rw [truncf_apply, shapeCast_1ab_ab_apply]

/-- The vector tanh at an entry. -/
theorem tanh_apply {s : Shape} {φ : FTy} (a : FVec Ideal s φ) (j : s.Idx) : tanh a j = Ideal.tanh (a j) := rfl

theorem kSig_apply (gi gh : FVec Ideal S512x128 .f32) (j : S512x128.Idx) :
    kSig gi gh j = sigT (gi j + gh j) := rfl

theorem kBlend_apply (h : FVec Ideal S512x128 .f32) (gh gi : FVec Ideal S512x384 .f32) (i : Fin 512) (d : Fin 128) :
    kBlend h gh gi (ix2 i d)
      = cellT (gi (ix2 i (colR d))) (gh (ix2 i (colR d))) (gi (ix2 i (colZ d))) (gh (ix2 i (colZ d)))
          (gi (ix2 i (colN d))) (gh (ix2 i (colN d))) (h (ix2 i d)) := by
  unfold kBlend cellT
  simp only [addf_apply, mulf_apply, subf_apply, tanh_apply, kSig_apply, broadcast_apply]
  rw [slice2_axis1_apply 128 gi slices_S512x384_o0_128_S512x128 i d (colZ d) rfl,
    slice2_axis1_apply 128 gh slices_S512x384_o0_128_S512x128 i d (colZ d) rfl,
    slice2_axis1_apply 256 gi slices_S512x384_o0_256_S512x128 i d (colN d) rfl,
    slice2_axis1_apply 256 gh slices_S512x384_o0_256_S512x128 i d (colN d) rfl,
    slice2_axis1_apply 0 gi slices_S512x384_o0_0_S512x128 i d (colR d) (Nat.zero_add _).symm,
    slice2_axis1_apply 0 gh slices_S512x384_o0_0_S512x128 i d (colR d) (Nat.zero_add _).symm]
  rfl

/-- One round of the body, at entry (i, d), is one round of the graph update with the tanh cell. -/
theorem kRound_apply (h : FVec Ideal S512x128 .f32) (A : FVec Ideal S1x512x512 .bf16) (Wl : Vec Ideal S1x128x128 .f32)
    (wih whh : FVec Ideal S384x128 .bf16) (bih bhh : FVec Ideal S1x384 .f32) (i : Fin 512) (d : Fin 128) :
    kRound h A Wl wih whh bih bhh (ix2 i d)
      = step cellT (fun j i => A (ix3 (0 : Fin 1) j i)) (fun d k => Wl (ix3 (0 : Fin 1) d k))
          (fun c k => wih (ix2 c k)) (fun c k => whh (ix2 c k)) (fun c => bih (ix2 (0 : Fin 1) c))
          (fun c => bhh (ix2 (0 : Fin 1) c)) (fun i d => h (ix2 i d)) i d := by
  unfold kRound step
  rw [kBlend_apply]
  simp only [kGate_apply]
  have e : (fun i k => kAgg (truncf .bf16 h bitsLt_bf16_f32) Wl A (ix2 i k))
      = agg (fun j i => A (ix3 (0 : Fin 1) j i)) (msg (fun j d => h (ix2 j d)) (fun d k => Wl (ix3 (0 : Fin 1) d k))) :=
    funext fun i => funext fun k => kAgg_apply _ Wl A i k
  rw [e]
  rfl

/-- The same as an equation of state matrices, so that rounds compose. -/
theorem kRound_fun (h : FVec Ideal S512x128 .f32) (A : FVec Ideal S1x512x512 .bf16) (Wl : Vec Ideal S1x128x128 .f32)
    (wih whh : FVec Ideal S384x128 .bf16) (bih bhh : FVec Ideal S1x384 .f32) :
    (fun i d => kRound h A Wl wih whh bih bhh (ix2 i d))
      = step cellT (fun j i => A (ix3 (0 : Fin 1) j i)) (fun d k => Wl (ix3 (0 : Fin 1) d k))
          (fun c k => wih (ix2 c k)) (fun c k => whh (ix2 c k)) (fun c => bih (ix2 (0 : Fin 1) c))
          (fun c => bhh (ix2 (0 : Fin 1) c)) (fun i d => h (ix2 i d)) :=
  funext fun i => funext fun d => kRound_apply h A Wl wih whh bih bhh i d

end Cert.KernelIdeal.Round

end
-- ==== Proof.KernelArray.lean ====
/-
  From one graph's block to the whole batch.

  The batch of four graphs is processed one graph per grid point: at point t the body reads graph t's states and
  edge words (the blocks of the two batched arrays at block index (t, 0, 0)) and the whole weight arrays, runs three
  rounds, and writes graph t's new states back as block (t, 0, 0) of the result. So:

  * the body's result is three rounds, round l with the l-th of the three stacked message matrices (`out_rounds`),
    and its entry (i, d) is Spec's `net cellT` of the matrices its operands hold (`out_apply`);
  * what point t writes back is block t of the whole-array function `G cellT` of the argument arrays
    (`flushed_eq`): the blocks of the batched arrays at point t are graph t's slices, the weight windows are the
    whole arrays, and the two bias rows are the host's reshape of the bias vectors;
  * the four blocks cover the result array (`cover`), so after the run it holds `G cellT` of the arguments
    (`final`, `run`).
-/
import proofs.«109102_g13975823582136_cont_week2b_684_16_alg».proof.Proof.KernelRound
import Idealize.ShloMosaic.Lib.StableHlo.Run

noncomputable section

namespace Cert.KernelIdeal.Whole

open Cert.KernelIdeal Cert.KernelIdeal.Gen Cert.KernelIdeal.Facts₀ Cert.KernelIdeal.Round
open Idealize.ShloMosaic Idealize.ShloMosaic.ValueIdx Idealize.ShloMosaic.TcCoe Idealize.SL.Sem Cert.GatedGraph
open Idealize.ShloMosaic.Pipeline (Dat)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The body's result as three rounds -/

/-- The load of message matrix 0 out of the stack of three. -/
theorem ld_W0 (x2 : Vec Ideal S3x128x128 .f32) (u : Fin 1) (d k : Fin 128) :
    View.ld x2 r0_4 (ix3 u d k) = x2 (ix3 (0 : Fin 3) d k) := by
  show x2 ((r0_4 : Rect S3x128x128).emb (ix3 u d k)) = _
  refine congrArg x2 (funext fun a => Fin.ext ?_)
  have hu : u.val = 0 := by omega
  match a with
  | ⟨0, _⟩ => show 0 + 1 * u.val = 0; omega
  | ⟨1, _⟩ => show 0 + 1 * d.val = d.val; omega
  | ⟨2, _⟩ => show 0 + 1 * k.val = k.val; omega

/-- The load of message matrix 1. -/
theorem ld_W1 (x2 : Vec Ideal S3x128x128 .f32) (u : Fin 1) (d k : Fin 128) :
    View.ld x2 r0_5 (ix3 u d k) = x2 (ix3 (1 : Fin 3) d k) := by
  show x2 ((r0_5 : Rect S3x128x128).emb (ix3 u d k)) = _
  refine congrArg x2 (funext fun a => Fin.ext ?_)
  have hu : u.val = 0 := by omega
  match a with
  | ⟨0, _⟩ => show 1 + 1 * u.val = 1; omega
  | ⟨1, _⟩ => show 0 + 1 * d.val = d.val; omega
  | ⟨2, _⟩ => show 0 + 1 * k.val = k.val; omega

/-- The load of message matrix 2. -/
theorem ld_W2 (x2 : Vec Ideal S3x128x128 .f32) (u : Fin 1) (d k : Fin 128) :
    View.ld x2 r0_6 (ix3 u d k) = x2 (ix3 (2 : Fin 3) d k) := by
  show x2 ((r0_6 : Rect S3x128x128).emb (ix3 u d k)) = _
  refine congrArg x2 (funext fun a => Fin.ext ?_)
  have hu : u.val = 0 := by omega
  match a with
  | ⟨0, _⟩ => show 2 + 1 * u.val = 2; omega
  | ⟨1, _⟩ => show 0 + 1 * d.val = d.val; omega
  | ⟨2, _⟩ => show 0 + 1 * k.val = k.val; omega

/-- The body's one store holds three rounds on the loaded block, cast back to the block's shape. -/
theorem out_rounds (x0 : Vec Ideal S1x512x128 .f32) (x1 : Vec Ideal S1x512x512 .i32) (x2 : Vec Ideal S3x128x128 .f32)
    (x3 x4 : Vec Ideal S384x128 .f32) (x5 x6 : Vec Ideal S1x384 .f32) :
    out0_7 x0 x1 x2 x3 x4 x5 x6
      = shapeCast S1x512x128
          (kRound
            (kRound
              (kRound (k0_pay2 x0) (k0_pay3 x1) (View.ld x2 r0_4) (k0_pay6 x3) (k0_pay7 x4) (k0_pay4 x5) (k0_pay5 x6))
              (k0_pay3 x1) (View.ld x2 r0_5) (k0_pay6 x3) (k0_pay7 x4) (k0_pay4 x5) (k0_pay5 x6))
            (k0_pay3 x1) (View.ld x2 r0_6) (k0_pay6 x3) (k0_pay7 x4) (k0_pay4 x5) (k0_pay5 x6))
          Facts₀.shapeCasts_S512x128_S1x512x128 := by
  unfold out0_7
  rw [View.canon_unit_zero zeros3]
  simp only [View.ld_unit_zero (S := S1x512x128) zeros3, View.ld_unit_zero (S := S1x512x512) zeros3,
    View.ld_unit_zero (S := S384x128) zeros2, View.ld_unit_zero (S := S1x384) zeros2]
  rfl

/-- Entry (i, d) of the body's result: three rounds with the tanh cell on the matrices the operands hold. -/
theorem out_apply (x0 : Vec Ideal S1x512x128 .f32) (x1 : Vec Ideal S1x512x512 .i32) (x2 : Vec Ideal S3x128x128 .f32)
    (x3 x4 : Vec Ideal S384x128 .f32) (x5 x6 : Vec Ideal S1x384 .f32)
    (A : Mat 512 512) (W : Fin 3 → Mat 128 128) (Wih Whh : Mat 384 128) (bih bhh : Fin 384 → EReal) (X : Mat 512 128)
    (hA : ∀ j i, ((((x1 (ix3 (0 : Fin 1) j i) : BitVec 32)).toInt : ℝ) : EReal) = A j i)
    (hW : ∀ l d k, x2 (ix3 l d k) = W l d k) (hWih : ∀ c k, x3 (ix2 c k) = Wih c k) (hWhh : ∀ c k, x4 (ix2 c k) = Whh c k)
    (hbih : ∀ c, x5 (ix2 (0 : Fin 1) c) = bih c) (hbhh : ∀ c, x6 (ix2 (0 : Fin 1) c) = bhh c)
    (hX : ∀ i d, x0 (ix3 (0 : Fin 1) i d) = X i d) (u : Fin 1) (i : Fin 512) (d : Fin 128) :
    out0_7 x0 x1 x2 x3 x4 x5 x6 (ix3 u i d) = net cellT A W Wih Whh bih bhh X i d := by
  have eA : (fun j i => k0_pay3 x1 (ix3 (0 : Fin 1) j i)) = A := funext fun j => funext fun i => hA j i
  have eW0 : (fun d k => View.ld x2 r0_4 (ix3 (0 : Fin 1) d k)) = W 0 :=
    funext fun d => funext fun k => (ld_W0 x2 0 d k).trans (hW 0 d k)
  have eW1 : (fun d k => View.ld x2 r0_5 (ix3 (0 : Fin 1) d k)) = W 1 :=
    funext fun d => funext fun k => (ld_W1 x2 0 d k).trans (hW 1 d k)
  have eW2 : (fun d k => View.ld x2 r0_6 (ix3 (0 : Fin 1) d k)) = W 2 :=
    funext fun d => funext fun k => (ld_W2 x2 0 d k).trans (hW 2 d k)
  have eWih : (fun c k => k0_pay6 x3 (ix2 c k)) = Wih := funext fun c => funext fun k => hWih c k
  have eWhh : (fun c k => k0_pay7 x4 (ix2 c k)) = Whh := funext fun c => funext fun k => hWhh c k
  have ebih : (fun c => k0_pay4 x5 (ix2 (0 : Fin 1) c)) = bih := funext fun c => by
    unfold k0_pay4; rw [shapeCast_self]; exact hbih c
  have ebhh : (fun c => k0_pay5 x6 (ix2 (0 : Fin 1) c)) = bhh := funext fun c => by
    unfold k0_pay5; rw [shapeCast_self]; exact hbhh c
  have eX : (fun i d => k0_pay2 x0 (ix2 i d)) = X := funext fun i => funext fun d => by
    unfold k0_pay2; rw [shapeCast_1ab_ab_apply]; exact hX i d
  rw [out_rounds, shapeCast_ab_1ab_apply, kRound_apply, kRound_fun, kRound_fun, eA, eW0, eW1, eW2, eWih, eWhh, ebih, ebhh, eX]
  rfl

/-! ## What each point writes back -/

variable (m : (ℓ : Loc nD τ sig) → Buf (Elt Ideal) ℓ) (ρ : Dev nD → PrngReg)

/-- The printed index maps over the four grid points: the two batched inputs and the output move with the point
    along the batch axis, every other window stays at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- The graph a grid point works on. -/
def graphOf (t : Fin cfg0.N) : Fin 4 := ⟨t.val, t.isLt⟩

/-- The whole-array function of the argument arrays, with the tanh cell. -/
abbrev GT (c : Dev nD) : S4x512x128.Idx → EReal :=
  G cellT (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The first bias row as the region finds it: the host's reshape of the bias vector. -/
theorem V_bih (c : Dev nD) :
    (V m c main_v0 : S1x384.Idx → EReal) = shapeCast S1x384 (m ((c : Thread nD τ).loc main_arg5)) Facts₀.shapeCasts_S384_S1x384 := by
  dsimp only [Gen.V, Gen.hostOps0]; after_results; rfl

/-- The second bias row as the region finds it. -/
theorem V_bhh (c : Dev nD) :
    (V m c main_v1 : S1x384.Idx → EReal) = shapeCast S1x384 (m ((c : Thread nD τ).loc main_arg6)) Facts₀.shapeCasts_S384_S1x384 := by
  dsimp only [Gen.V, Gen.hostOps0]; after_results; rfl

/-- Graph t's states: the block of the states array at point t. -/
theorem blk_x (c : Dev nD) (t : Fin cfg0.N) (u : Fin 1) (i : Fin 512) (d : Fin 128) :
    iblk m c 0 t (ix3 u i d) = m ((c : Thread nD τ).loc main_arg0) (ix3 (graphOf t) i d) := by
  show V m c main_arg0 (((cfg0.win 0).blk t).view.emb (ix3 u i d)) = _
  rw [V_main_arg0]
  refine congrArg _ (funext fun a => Fin.ext ?_)
  obtain ⟨e0, e1, e2, -⟩ := idx_facts t
  have hu : u.val = 0 := by omega
  match a with
  | ⟨0, _⟩ => show win0_0.index t (0 : Fin 3) * 1 + 1 * u.val = t.val; omega
  | ⟨1, _⟩ => show win0_0.index t (1 : Fin 3) * 512 + 1 * i.val = i.val; omega
  | ⟨2, _⟩ => show win0_0.index t (2 : Fin 3) * 128 + 1 * d.val = d.val; omega

/-- Graph t's edge words: the block of the edge array at point t. -/
theorem blk_adj (c : Dev nD) (t : Fin cfg0.N) (u : Fin 1) (j i : Fin 512) :
    iblk m c 1 t (ix3 u j i) = m ((c : Thread nD τ).loc main_arg1) (ix3 (graphOf t) j i) := by
  show V m c main_arg1 (((cfg0.win 1).blk t).view.emb (ix3 u j i)) = _
  rw [V_main_arg1]
  refine congrArg _ (funext fun a => Fin.ext ?_)
  obtain ⟨-, -, -, e0, e1, e2, -⟩ := idx_facts t
  have hu : u.val = 0 := by omega
  match a with
  | ⟨0, _⟩ => show win0_1.index t (0 : Fin 3) * 1 + 1 * u.val = t.val; omega
  | ⟨1, _⟩ => show win0_1.index t (1 : Fin 3) * 512 + 1 * j.val = j.val; omega
  | ⟨2, _⟩ => show win0_1.index t (2 : Fin 3) * 512 + 1 * i.val = i.val; omega

/-- The message matrices' window is the whole stack at every point. -/
theorem blk_W (c : Dev nD) (t : Fin cfg0.N) (l : Fin 3) (d k : Fin 128) :
    iblk m c 2 t (ix3 l d k) = m ((c : Thread nD τ).loc main_arg2) (ix3 l d k) := by
  show V m c main_arg2 (((cfg0.win 2).blk t).view.emb (ix3 l d k)) = _
  rw [V_main_arg2]
  refine congrArg _ (funext fun a => Fin.ext ?_)
  obtain ⟨-, -, -, -, -, -, e0, e1, e2, -⟩ := idx_facts t
  match a with
  | ⟨0, _⟩ => show win0_2.index t (0 : Fin 3) * 3 + 1 * l.val = l.val; omega
  | ⟨1, _⟩ => show win0_2.index t (1 : Fin 3) * 128 + 1 * d.val = d.val; omega
  | ⟨2, _⟩ => show win0_2.index t (2 : Fin 3) * 128 + 1 * k.val = k.val; omega

/-- The first gate matrix's window is the whole matrix at every point. -/
theorem blk_Wih (c : Dev nD) (t : Fin cfg0.N) (cc : Fin 384) (k : Fin 128) :
    iblk m c 3 t (ix2 cc k) = m ((c : Thread nD τ).loc main_arg3) (ix2 cc k) := by
  show V m c main_arg3 (((cfg0.win 3).blk t).view.emb (ix2 cc k)) = _
  rw [V_main_arg3]
  refine congrArg _ (funext fun a => Fin.ext ?_)
  obtain ⟨-, -, -, -, -, -, -, -, -, e0, e1, -⟩ := idx_facts t
  match a with
  | ⟨0, _⟩ => show win0_3.index t (0 : Fin 2) * 384 + 1 * cc.val = cc.val; omega
  | ⟨1, _⟩ => show win0_3.index t (1 : Fin 2) * 128 + 1 * k.val = k.val; omega

/-- The second gate matrix's window is the whole matrix at every point. -/
theorem blk_Whh (c : Dev nD) (t : Fin cfg0.N) (cc : Fin 384) (k : Fin 128) :
    iblk m c 4 t (ix2 cc k) = m ((c : Thread nD τ).loc main_arg4) (ix2 cc k) := by
  show V m c main_arg4 (((cfg0.win 4).blk t).view.emb (ix2 cc k)) = _
  rw [V_main_arg4]
  refine congrArg _ (funext fun a => Fin.ext ?_)
  obtain ⟨-, -, -, -, -, -, -, -, -, -, -, e0, e1, -⟩ := idx_facts t
  match a with
  | ⟨0, _⟩ => show win0_4.index t (0 : Fin 2) * 384 + 1 * cc.val = cc.val; omega
  | ⟨1, _⟩ => show win0_4.index t (1 : Fin 2) * 128 + 1 * k.val = k.val; omega

/-- The first bias row's window is the reshaped bias vector at every point. -/
theorem blk_bih (c : Dev nD) (t : Fin cfg0.N) (u : Fin 1) (cc : Fin 384) :
    iblk m c 5 t (ix2 u cc) = m ((c : Thread nD τ).loc main_arg5) (ix1 cc) := by
  show (V m c main_v0 : S1x384.Idx → EReal) (((cfg0.win 5).blk t).view.emb (ix2 u cc)) = _
  rw [V_bih, ← shapeCast_a_1a_apply (m ((c : Thread nD τ).loc main_arg5)) Facts₀.shapeCasts_S384_S1x384 u cc]
  refine congrArg _ (funext fun a => Fin.ext ?_)
  obtain ⟨-, -, -, -, -, -, -, -, -, -, -, -, -, e0, e1, -⟩ := idx_facts t
  match a with
  | ⟨0, _⟩ => show win0_5.index t (0 : Fin 2) * 1 + 1 * u.val = u.val; omega
  | ⟨1, _⟩ => show win0_5.index t (1 : Fin 2) * 384 + 1 * cc.val = cc.val; omega

/-- The second bias row's window is the reshaped bias vector at every point. -/
theorem blk_bhh (c : Dev nD) (t : Fin cfg0.N) (u : Fin 1) (cc : Fin 384) :
    iblk m c 6 t (ix2 u cc) = m ((c : Thread nD τ).loc main_arg6) (ix1 cc) := by
  show (V m c main_v1 : S1x384.Idx → EReal) (((cfg0.win 6).blk t).view.emb (ix2 u cc)) = _
  rw [V_bhh, ← shapeCast_a_1a_apply (m ((c : Thread nD τ).loc main_arg6)) Facts₀.shapeCasts_S384_S1x384 u cc]
  refine congrArg _ (funext fun a => Fin.ext ?_)
  obtain ⟨-, -, -, -, -, -, -, -, -, -, -, -, -, -, -, e0, e1, -⟩ := idx_facts t
  match a with
  | ⟨0, _⟩ => show win0_6.index t (0 : Fin 2) * 1 + 1 * u.val = u.val; omega
  | ⟨1, _⟩ => show win0_6.index t (1 : Fin 2) * 384 + 1 * cc.val = cc.val; omega

/-- Where entry (u, i, d) of the output block of point t sits in the result array: graph t's entry (i, d). -/
theorem blk_out (t : Fin cfg0.N) (u : Fin 1) (i : Fin 512) (d : Fin 128) :
    ((cfg0.win 7).blk t).view.emb (ix3 u i d) = ix3 (graphOf t) i d := by
  refine funext fun a => Fin.ext ?_
  obtain ⟨-, -, -, -, -, -, -, -, -, -, -, -, -, -, -, -, -, e0, e1, e2⟩ := idx_facts t
  have hu : u.val = 0 := by omega
  match a with
  | ⟨0, _⟩ => show win0_7.index t (0 : Fin 3) * 1 + 1 * u.val = t.val; omega
  | ⟨1, _⟩ => show win0_7.index t (1 : Fin 3) * 512 + 1 * i.val = i.val; omega
  | ⟨2, _⟩ => show win0_7.index t (2 : Fin 3) * 128 + 1 * d.val = d.val; omega

/-- WHAT POINT t WRITES BACK is block t of the whole-array function of the argument arrays. -/
theorem flushed_eq (c : Dev nD) (t : Fin cfg0.N) :
    (dats m 0 c).flushed 7 t = ((cfg0.win 7).blk t).view.read (Elt Ideal) (GT m c) := by
  rw [Value.flushed7]
  funext y
  obtain ⟨u, i, d, rfl⟩ : ∃ (u : Fin 1) (i : Fin 512) (d : Fin 128), y = ix3 u i d := ⟨y 0, y 1, y 2, eq_ix3 y⟩
  show out0_7 (iblk m c 0 t) (iblk m c 1 t) (iblk m c 2 t) (iblk m c 3 t) (iblk m c 4 t) (iblk m c 5 t) (iblk m c 6 t) (ix3 u i d)
    = GT m c (((cfg0.win 7).blk t).view.emb (ix3 u i d))
  rw [blk_out t u i d]
  exact out_apply (iblk m c 0 t) (iblk m c 1 t) (iblk m c 2 t) (iblk m c 3 t) (iblk m c 4 t) (iblk m c 5 t) (iblk m c 6 t)
    (edges (m ((c : Thread nD τ).loc main_arg1)) (graphOf t)) (fun l d k => m ((c : Thread nD τ).loc main_arg2) (ix3 l d k))
    (fun cc k => m ((c : Thread nD τ).loc main_arg3) (ix2 cc k)) (fun cc k => m ((c : Thread nD τ).loc main_arg4) (ix2 cc k))
    (fun cc => m ((c : Thread nD τ).loc main_arg5) (ix1 cc)) (fun cc => m ((c : Thread nD τ).loc main_arg6) (ix1 cc))
    (fun i d => m ((c : Thread nD τ).loc main_arg0) (ix3 (graphOf t) i d))
    (fun j i => by rw [blk_adj m c t 0 j i]; rfl) (fun l d k => blk_W m c t l d k) (fun cc k => blk_Wih m c t cc k)
    (fun cc k => blk_Whh m c t cc k) (fun cc => blk_bih m c t 0 cc) (fun cc => blk_bhh m c t 0 cc)
    (fun i d => blk_x m c t 0 i d) u i d

/-! ## The four blocks cover the result -/

/-- An index of the result array is in point t's block iff each coordinate is in the block's range on its axis. -/
theorem mem_blk (t : Fin cfg0.N) (i : S4x512x128.Idx) :
    i ∈ ((cfg0.win 7).blk t).view.set
      ↔ ∀ a : Fin 3, win0_7.index t a * S1x512x128.size a ≤ (i a).val
          ∧ (i a).val < win0_7.index t a * S1x512x128.size a + S1x512x128.size a := by
  show i ∈ ((View.whole main_v2).slice (win0_7.rect t)).set ↔ _
  rw [View.set_slice_whole, Rect.mem_set_unit]
  exact Iff.rfl

/-- Every index of the result array is in the block of the point that works on its graph. -/
theorem cover (i : S4x512x128.Idx) :
    ∃ t : Fin cfg0.N, (cfg0.win 7).flush t = true ∧ i ∈ ((cfg0.win 7).blk t).view.set := by
  have h0 : (i 0).val < 4 := (i 0).isLt
  have h1 : (i 1).val < 512 := (i 1).isLt
  have h2 : (i 2).val < 128 := (i 2).isLt
  refine ⟨⟨(i 0).val, h0⟩, flush0_7 _, ?_⟩
  rw [mem_blk]
  obtain ⟨-, -, -, -, -, -, -, -, -, -, -, -, -, -, -, -, -, e0', e1, e2⟩ := idx_facts ⟨(i 0).val, h0⟩
  have e0 : win0_7.index ⟨(i 0).val, h0⟩ (0 : Fin 3) = (i 0).val := e0'
  intro a
  match a with
  | ⟨0, _⟩ =>
    show win0_7.index ⟨(i 0).val, h0⟩ (0 : Fin 3) * 1 ≤ (i 0).val ∧ (i 0).val < win0_7.index ⟨(i 0).val, h0⟩ (0 : Fin 3) * 1 + 1
    rw [e0]; omega
  | ⟨1, _⟩ =>
    show win0_7.index ⟨(i 0).val, h0⟩ (1 : Fin 3) * 512 ≤ (i 1).val ∧ (i 1).val < win0_7.index ⟨(i 0).val, h0⟩ (1 : Fin 3) * 512 + 512
    rw [e1]; omega
  | ⟨2, _⟩ =>
    show win0_7.index ⟨(i 0).val, h0⟩ (2 : Fin 3) * 128 ≤ (i 2).val ∧ (i 2).val < win0_7.index ⟨(i 0).val, h0⟩ (2 : Fin 3) * 128 + 128
    rw [e2]; omega

/-- THE RESULT ARRAY after the run is the whole-array function of the argument arrays. -/
theorem final (c : Dev nD) : (dats m 0 c).arrAt 7 cfg0.N = GT m c :=
  (dats m 0 c).arrAt_eq_of_cover 7 (GT m c) (fun t _ => flushed_eq m c t) cover

/-- The run, read: the result at the whole-array function of the arguments, the arguments unchanged. -/
theorem run : θ_run defs (onTc (τ := τ) (main (F := Ideal))) ⟨m, fun _ => 0, ρ⟩ fun r => ∀ c : Dev nD,
      r.2.mem ((c : Thread nD τ).loc main_v2) = GT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.LibRowNet.lean ====
/-
  Rows through a small dense network, read index by index on the extended reals.

  A "row" is a vector of extended reals indexed by its last axis. One LAYER takes a row x of length n to
  the row of length k

      y o   = (∑ j, x j * W o j) + b o                         (an affine map)
      μ     = (∑ i, y i) / den
      σ²    = (∑ i, (y i - μ) * (y i - μ)) / den
      out o = max (((y o - μ) * rsqrt (σ² + eps)) * g o + be o) zero

  (division, reciprocal square root and max the exact extended-real ones). This file states that function once
  (lin, norm, layer) and proves that the vector program which flattens a stack [A, B, n] of rows to
  [A·B, n], multiplies by the transposed weight matrix into a zero accumulator, adds the bias row, restores the
  stack, and normalises along the last axis with keepdims reductions and broadcasts, computes exactly that
  function of each row: the entry at (p, q, o) depends only on the row (p, q, ·) of the input.
  Everything is generic in the extents A, B, n, k.
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowNet

open Idealize.ShloMosaic Idealize.ShloMosaic.ValueIdx

/-! ## The row functions -/

/-- The affine map of a row: y o = (∑ j, x j * W o j) + b o. -/
def lin {n k : ℕ} (W : Fin k → Fin n → EReal) (b : Fin k → EReal) (x : Fin n → EReal) : Fin k → EReal :=
  fun o => (∑ j : Fin n, x j * W o j) + b o

/-- Normalisation of a row by its own mean and (biased) variance, then scale and shift. -/
def norm {k : ℕ} (den eps : EReal) (g be : Fin k → EReal) (y : Fin k → EReal) : Fin k → EReal :=
  fun o =>
    (y o - Ideal.div (∑ i : Fin k, y i) den)
        * Ideal.rsqrt (Ideal.div (∑ i : Fin k, (y i - Ideal.div (∑ i' : Fin k, y i') den) * (y i - Ideal.div (∑ i' : Fin k, y i') den)) den + eps)
        * g o
      + be o

/-- One layer: affine map, normalisation, and the positive part against zero. -/
def layer {n k : ℕ} (den eps zero : EReal) (W : Fin k → Fin n → EReal) (b g be : Fin k → EReal) (x : Fin n → EReal) : Fin k → EReal :=
  fun o => max (norm den eps g be (lin W b x) o) zero

/-! ## Layout operations on stacks of rows, read at an index -/

section layout
variable {α : Type}

/-- p·B + q is a row number of the flattened stack. -/
theorem row_lt {A B R : ℕ} (hR : R = A * B) (p : Fin A) (q : Fin B) : p.val * B + q.val < R := by
  rw [hR]
  calc p.val * B + q.val < p.val * B + B := Nat.add_lt_add_left q.isLt _
    _ = (p.val + 1) * B := by rw [Nat.succ_mul]
    _ ≤ A * B := Nat.mul_le_mul_right _ p.isLt

/-- The stack [A, B, n] flattened to [R, n]: row p·B + q is row (p, q). -/
theorem flatten_apply {A B R n : ℕ} (x : (⟨3, ![A, B, n]⟩ : Shape).Idx → α) (h : (⟨3, ![A, B, n]⟩ : Shape).ShapeCasts ⟨2, ![R, n]⟩)
    (p : Fin A) (q : Fin B) (r : Fin R) (o : Fin n) (hr : r.val = p.val * B + q.val) :
    shapeCast ⟨2, ![R, n]⟩ x h (ix2 r o) = x (ix3 p q o) :=
  shapeCast_apply x h _ _ (by
    rw [Shape.rowMajor_val_three, Shape.rowMajor_val_two]
    show (p.val * B + q.val) * n + o.val = r.val * n + o.val
    rw [hr])

/-- [R, n] restored to the stack [A, B, n]: row (p, q) is row p·B + q. -/
theorem unflatten_apply {A B R n : ℕ} (x : (⟨2, ![R, n]⟩ : Shape).Idx → α) (h : (⟨2, ![R, n]⟩ : Shape).ShapeCasts ⟨3, ![A, B, n]⟩)
    (p : Fin A) (q : Fin B) (r : Fin R) (o : Fin n) (hr : r.val = p.val * B + q.val) :
    shapeCast ⟨3, ![A, B, n]⟩ x h (ix3 p q o) = x (ix2 r o) :=
  shapeCast_apply x h _ _ (by
    rw [Shape.rowMajor_val_three, Shape.rowMajor_val_two]
    show r.val * n + o.val = (p.val * B + q.val) * n + o.val
    rw [hr])

/-- A trailing unit axis added: [A, B] read as [A, B, 1]. -/
theorem keepdims_apply {A B : ℕ} (x : (⟨2, ![A, B]⟩ : Shape).Idx → α) (h : (⟨2, ![A, B]⟩ : Shape).ShapeCasts ⟨3, ![A, B, 1]⟩)
    (p : Fin A) (q : Fin B) (u : Fin 1) :
    shapeCast ⟨3, ![A, B, 1]⟩ x h (ix3 p q u) = x (ix2 p q) :=
  shapeCast_apply x h _ _ (by
    have hu : u.val = 0 := by omega
    rw [Shape.rowMajor_val_three, Shape.rowMajor_val_two]
    show p.val * B + q.val = (p.val * B + q.val) * 1 + u.val
    rw [hu, Nat.mul_one, Nat.add_zero])

/-- The column [A, B, 1] broadcast along the last axis to [A, B, k]. -/
theorem bcastLast_apply {A B k : ℕ} (x : (⟨3, ![A, B, 1]⟩ : Shape).Idx → α) (h : (⟨3, ![A, B, 1]⟩ : Shape).Broadcasts ⟨3, ![A, B, k]⟩)
    (p : Fin A) (q : Fin B) (o : Fin k) :
    broadcastTo ⟨3, ![A, B, k]⟩ x h (ix3 p q o) = x (ix3 p q (0 : Fin 1)) := by
  refine broadcastTo_apply x h (ix3 p q o) (ix3 p q (0 : Fin 1)) fun ax => ?_
  match ax with
  | ⟨0, _⟩ =>
    show p.val = if A = 1 then 0 else p.val
    split
    · have := p.isLt; omega
    · rfl
  | ⟨1, _⟩ =>
    show q.val = if B = 1 then 0 else q.val
    split
    · have := q.isLt; omega
    · rfl
  | ⟨2, _⟩ => rfl

/-- A vector [k] read as [1, 1, k]. -/
theorem lead2_apply {k : ℕ} (x : (⟨1, ![k]⟩ : Shape).Idx → α) (h : (⟨1, ![k]⟩ : Shape).ShapeCasts ⟨3, ![1, 1, k]⟩)
    (u v : Fin 1) (o : Fin k) :
    shapeCast ⟨3, ![1, 1, k]⟩ x h (ix3 u v o) = x (ix1 o) :=
  shapeCast_apply x h _ _ (by
    have hu : u.val = 0 := by omega
    have hv : v.val = 0 := by omega
    rw [Shape.rowMajor_val_three, Shape.rowMajor_val_one]
    show o.val = (u.val * 1 + v.val) * k + o.val
    rw [hu, hv]; simp)

/-- The row [1, 1, k] broadcast over the stack to [A, B, k]. -/
theorem bcastRow_apply {A B k : ℕ} (x : (⟨3, ![1, 1, k]⟩ : Shape).Idx → α) (h : (⟨3, ![1, 1, k]⟩ : Shape).Broadcasts ⟨3, ![A, B, k]⟩)
    (p : Fin A) (q : Fin B) (o : Fin k) :
    broadcastTo ⟨3, ![A, B, k]⟩ x h (ix3 p q o) = x (ix3 (0 : Fin 1) (0 : Fin 1) o) := by
  refine broadcastTo_apply x h (ix3 p q o) (ix3 (0 : Fin 1) (0 : Fin 1) o) fun ax => ?_
  match ax with
  | ⟨0, _⟩ => rfl
  | ⟨1, _⟩ => rfl
  | ⟨2, _⟩ =>
    show o.val = if k = 1 then 0 else o.val
    split
    · have := o.isLt; omega
    · rfl

end layout

/-! ## Sums along the last axis -/

/-- The sum of a stack along its last axis, into a zero accumulator: at (p, q) the sum of row (p, q). -/
theorem sumLast_apply {A B k : ℕ} (Y : FVec Ideal ⟨3, ![A, B, k]⟩ .f32)
    (hr : (⟨3, ![A, B, k]⟩ : Shape).Reduces [2] ⟨2, ![A, B]⟩) (hφ : FKind.Formats .f32)
    (hacc : (0x00000000#32 : BitVec FTy.f32.bits) = FKind.add.neutral .f32 hφ) (p : Fin A) (q : Fin B) :
    multiReduction .add [2] ⟨2, ![A, B]⟩ Y 0x00000000#32 hr hφ hacc (ix2 p q) = ∑ o : Fin k, Y (ix3 p q o) :=
  (Ideal.multiReduction_add_single Y _ hr hφ hacc (ix2 p q)).trans
    (Finset.sum_congr rfl fun o _ => congrArg Y (funext fun a => Fin.ext (by
      match a with
      | ⟨0, _⟩ => rfl
      | ⟨1, _⟩ => rfl
      | ⟨2, _⟩ => rfl)))

/-! ## The vector program of one layer, and what it computes row by row -/

section program
variable {A B R n k : ℕ}

/-- The affine map as the vector program spells it: flatten the stack, multiply by the transposed weights into a
    zero accumulator, add the bias row broadcast over all rows, restore the stack. -/
def kLin (D : DotDims ⟨2, ![R, n]⟩ ⟨2, ![n, k]⟩ ⟨2, ![R, k]⟩)
    (h1 : (⟨3, ![A, B, n]⟩ : Shape).ShapeCasts ⟨2, ![R, n]⟩) (h2 : (⟨2, ![k, n]⟩ : Shape).Transposes [1, 0] ⟨2, ![n, k]⟩)
    (h3 : (⟨1, ![k]⟩ : Shape).ShapeCasts ⟨2, ![1, k]⟩) (h4 : (⟨2, ![1, k]⟩ : Shape).Broadcasts ⟨2, ![R, k]⟩)
    (h5 : (⟨2, ![R, k]⟩ : Shape).ShapeCasts ⟨3, ![A, B, k]⟩)
    (X : FVec Ideal ⟨3, ![A, B, n]⟩ .f32) (W : FVec Ideal ⟨2, ![k, n]⟩ .f32) (b : FVec Ideal ⟨1, ![k]⟩ .f32) :
    FVec Ideal ⟨3, ![A, B, k]⟩ .f32 :=
  shapeCast ⟨3, ![A, B, k]⟩
    (addf (matmul D none (shapeCast ⟨2, ![R, n]⟩ X h1) (transpose ⟨2, ![n, k]⟩ [1, 0] W h2) (constant ⟨2, ![R, k]⟩ .f32 0x00000000#32))
      (broadcastTo ⟨2, ![R, k]⟩ (shapeCast ⟨2, ![1, k]⟩ b h3) h4)) h5

/-- Row (p, q) of the affine map is lin of row (p, q) of the input, given that the matrix product into a
    zero accumulator is the plain sum of products over the contracted axis. -/
theorem kLin_apply (D : DotDims ⟨2, ![R, n]⟩ ⟨2, ![n, k]⟩ ⟨2, ![R, k]⟩)
    (h1 : (⟨3, ![A, B, n]⟩ : Shape).ShapeCasts ⟨2, ![R, n]⟩) (h2 : (⟨2, ![k, n]⟩ : Shape).Transposes [1, 0] ⟨2, ![n, k]⟩)
    (h3 : (⟨1, ![k]⟩ : Shape).ShapeCasts ⟨2, ![1, k]⟩) (h4 : (⟨2, ![1, k]⟩ : Shape).Broadcasts ⟨2, ![R, k]⟩)
    (h5 : (⟨2, ![R, k]⟩ : Shape).ShapeCasts ⟨3, ![A, B, k]⟩)
    (X : FVec Ideal ⟨3, ![A, B, n]⟩ .f32) (W : FVec Ideal ⟨2, ![k, n]⟩ .f32) (b : FVec Ideal ⟨1, ![k]⟩ .f32)
    (hR : R = A * B)
    (hmm : ∀ (L : FVec Ideal ⟨2, ![R, n]⟩ .f32) (M : FVec Ideal ⟨2, ![n, k]⟩ .f32) (r : Fin R) (o : Fin k),
      matmul D none L M (constant ⟨2, ![R, k]⟩ .f32 0x00000000#32) (ix2 r o) = ∑ j : Fin n, L (ix2 r j) * M (ix2 j o))
    (p : Fin A) (q : Fin B) (o : Fin k) :
    kLin D h1 h2 h3 h4 h5 X W b (ix3 p q o)
      = lin (fun o j => W (ix2 o j)) (fun o => b (ix1 o)) (fun j => X (ix3 p q j)) o := by
  unfold kLin lin
  rw [unflatten_apply _ h5 p q ⟨_, row_lt hR p q⟩ o rfl, addf_apply, hmm, broadcastTo_1b_ab_apply, shapeCast_a_1a_apply]
  refine congrArg (· + b (ix1 o)) (Finset.sum_congr rfl fun j _ => ?_)
  rw [flatten_apply X h1 p q ⟨_, row_lt hR p q⟩ j rfl, transpose_ix2_apply]

/-- The normalisation as the vector program spells it: keepdims sums along the last axis divided by a splat,
    the differences, their squares' mean, the reciprocal square root, and the scale and shift rows broadcast
    over the stack. -/
def kNorm (hr : (⟨3, ![A, B, k]⟩ : Shape).Reduces [2] ⟨2, ![A, B]⟩) (hφ : FKind.Formats .f32)
    (hacc : (0x00000000#32 : BitVec FTy.f32.bits) = FKind.add.neutral .f32 hφ)
    (c1 : (⟨2, ![A, B]⟩ : Shape).ShapeCasts ⟨3, ![A, B, 1]⟩) (b1 : (⟨3, ![A, B, 1]⟩ : Shape).Broadcasts ⟨3, ![A, B, k]⟩)
    (c2 : (⟨1, ![k]⟩ : Shape).ShapeCasts ⟨3, ![1, 1, k]⟩) (b2 : (⟨3, ![1, 1, k]⟩ : Shape).Broadcasts ⟨3, ![A, B, k]⟩)
    (den eps : BitVec 32) (Y : FVec Ideal ⟨3, ![A, B, k]⟩ .f32) (g be : FVec Ideal ⟨1, ![k]⟩ .f32) :
    FVec Ideal ⟨3, ![A, B, k]⟩ .f32 :=
  addf
    (mulf
      (mulf
        (subf Y (broadcastTo ⟨3, ![A, B, k]⟩
          (divf (shapeCast ⟨3, ![A, B, 1]⟩ (multiReduction .add [2] ⟨2, ![A, B]⟩ Y 0x00000000#32 hr hφ hacc) c1)
            (broadcast ⟨3, ![A, B, 1]⟩ (Scalar.ofBits .f32 den))) b1))
        (broadcastTo ⟨3, ![A, B, k]⟩
          (rsqrt (addf
            (divf (shapeCast ⟨3, ![A, B, 1]⟩ (multiReduction .add [2] ⟨2, ![A, B]⟩
                (mulf
                  (subf Y (broadcastTo ⟨3, ![A, B, k]⟩
                    (divf (shapeCast ⟨3, ![A, B, 1]⟩ (multiReduction .add [2] ⟨2, ![A, B]⟩ Y 0x00000000#32 hr hφ hacc) c1)
                      (broadcast ⟨3, ![A, B, 1]⟩ (Scalar.ofBits .f32 den))) b1))
                  (subf Y (broadcastTo ⟨3, ![A, B, k]⟩
                    (divf (shapeCast ⟨3, ![A, B, 1]⟩ (multiReduction .add [2] ⟨2, ![A, B]⟩ Y 0x00000000#32 hr hφ hacc) c1)
                      (broadcast ⟨3, ![A, B, 1]⟩ (Scalar.ofBits .f32 den))) b1)))
                0x00000000#32 hr hφ hacc) c1)
              (broadcast ⟨3, ![A, B, 1]⟩ (Scalar.ofBits .f32 den)))
            (broadcast ⟨3, ![A, B, 1]⟩ (Scalar.ofBits .f32 eps)))) b1))
      (broadcastTo ⟨3, ![A, B, k]⟩ (shapeCast ⟨3, ![1, 1, k]⟩ g c2) b2))
    (broadcastTo ⟨3, ![A, B, k]⟩ (shapeCast ⟨3, ![1, 1, k]⟩ be c2) b2)

/-- Row (p, q) of the normalisation is norm of row (p, q). -/
theorem kNorm_apply (hr : (⟨3, ![A, B, k]⟩ : Shape).Reduces [2] ⟨2, ![A, B]⟩) (hφ : FKind.Formats .f32)
    (hacc : (0x00000000#32 : BitVec FTy.f32.bits) = FKind.add.neutral .f32 hφ)
    (c1 : (⟨2, ![A, B]⟩ : Shape).ShapeCasts ⟨3, ![A, B, 1]⟩) (b1 : (⟨3, ![A, B, 1]⟩ : Shape).Broadcasts ⟨3, ![A, B, k]⟩)
    (c2 : (⟨1, ![k]⟩ : Shape).ShapeCasts ⟨3, ![1, 1, k]⟩) (b2 : (⟨3, ![1, 1, k]⟩ : Shape).Broadcasts ⟨3, ![A, B, k]⟩)
    (den eps : BitVec 32) (Y : FVec Ideal ⟨3, ![A, B, k]⟩ .f32) (g be : FVec Ideal ⟨1, ![k]⟩ .f32)
    (p : Fin A) (q : Fin B) (o : Fin k) :
    kNorm hr hφ hacc c1 b1 c2 b2 den eps Y g be (ix3 p q o)
      = norm (Ideal.ofBits .f32 den) (Ideal.ofBits .f32 eps) (fun o => g (ix1 o)) (fun o => be (ix1 o)) (fun i => Y (ix3 p q i)) o := by
  unfold kNorm norm
  simp only [addf_apply, mulf_apply, subf_apply, divf_apply, rsqrt, Ideal.rsqrt_def, broadcast_apply, bcastLast_apply, keepdims_apply,
    sumLast_apply _ hr hφ hacc, bcastRow_apply, lead2_apply]
  rfl

/-- The positive part against the zero splat, entry by entry. -/
theorem relu_apply {s : Shape} (Y : FVec Ideal s .f32) (i : s.Idx) :
    maximumf Y (broadcast s (Scalar.ofBits .f32 0x00000000#32)) i = max (Y i) (Ideal.ofBits .f32 0x00000000#32) := rfl

/-- One whole layer of the vector program, row by row: the entries (p, q, ·) of its result are layer of the row
    (p, q, ·) of its input. Stated as an equation of functions of the last coordinate, so that layers compose. -/
theorem kLayer_fun (D : DotDims ⟨2, ![R, n]⟩ ⟨2, ![n, k]⟩ ⟨2, ![R, k]⟩)
    (h1 : (⟨3, ![A, B, n]⟩ : Shape).ShapeCasts ⟨2, ![R, n]⟩) (h2 : (⟨2, ![k, n]⟩ : Shape).Transposes [1, 0] ⟨2, ![n, k]⟩)
    (h3 : (⟨1, ![k]⟩ : Shape).ShapeCasts ⟨2, ![1, k]⟩) (h4 : (⟨2, ![1, k]⟩ : Shape).Broadcasts ⟨2, ![R, k]⟩)
    (h5 : (⟨2, ![R, k]⟩ : Shape).ShapeCasts ⟨3, ![A, B, k]⟩)
    (hr : (⟨3, ![A, B, k]⟩ : Shape).Reduces [2] ⟨2, ![A, B]⟩) (hφ : FKind.Formats .f32)
    (hacc : (0x00000000#32 : BitVec FTy.f32.bits) = FKind.add.neutral .f32 hφ)
    (c1 : (⟨2, ![A, B]⟩ : Shape).ShapeCasts ⟨3, ![A, B, 1]⟩) (b1 : (⟨3, ![A, B, 1]⟩ : Shape).Broadcasts ⟨3, ![A, B, k]⟩)
    (c2 : (⟨1, ![k]⟩ : Shape).ShapeCasts ⟨3, ![1, 1, k]⟩) (b2 : (⟨3, ![1, 1, k]⟩ : Shape).Broadcasts ⟨3, ![A, B, k]⟩)
    (den eps : BitVec 32)
    (X : FVec Ideal ⟨3, ![A, B, n]⟩ .f32) (W : FVec Ideal ⟨2, ![k, n]⟩ .f32) (b g be : FVec Ideal ⟨1, ![k]⟩ .f32)
    (hR : R = A * B)
    (hmm : ∀ (L : FVec Ideal ⟨2, ![R, n]⟩ .f32) (M : FVec Ideal ⟨2, ![n, k]⟩ .f32) (r : Fin R) (o : Fin k),
      matmul D none L M (constant ⟨2, ![R, k]⟩ .f32 0x00000000#32) (ix2 r o) = ∑ j : Fin n, L (ix2 r j) * M (ix2 j o))
    (p : Fin A) (q : Fin B) :
    (fun o : Fin k => maximumf (kNorm hr hφ hacc c1 b1 c2 b2 den eps (kLin D h1 h2 h3 h4 h5 X W b) g be)
        (broadcast ⟨3, ![A, B, k]⟩ (Scalar.ofBits .f32 0x00000000#32)) (ix3 p q o))
      = layer (Ideal.ofBits .f32 den) (Ideal.ofBits .f32 eps) (Ideal.ofBits .f32 0x00000000#32)
          (fun o j => W (ix2 o j)) (fun o => b (ix1 o)) (fun o => g (ix1 o)) (fun o => be (ix1 o)) (fun j => X (ix3 p q j)) := by
  funext o
  rw [relu_apply, kNorm_apply]
  unfold layer
  rw [show (fun i => kLin D h1 h2 h3 h4 h5 X W b (ix3 p q i))
        = lin (fun o j => W (ix2 o j)) (fun o => b (ix1 o)) (fun j => X (ix3 p q j))
      from funext fun i => kLin_apply D h1 h2 h3 h4 h5 X W b hR hmm p q i]

end program

end Cert.RowNet

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.RefRead.lean ====
/-
  The reference program read as the gated graph update of the specification.

  The reference runs three identical rounds on the whole batch of four graphs at once, the node states of all graphs
  stacked into one matrix of 2048 = 4 * 512 rows. One round, on the stacked states h: the messages h · W[l] (one
  plain product for all rows), the messages of graph b summed over its incoming edges (one product per graph,
  contracting the source node), the two affine gate maps a · Wihᵀ + bih and h · Whhᵀ + bhh into 384 columns, the
  three column thirds cut out, the logistic gates written as 1 / (1 + exp (-s)), the candidate tanh (n_i + r * n_h),
  and the blend (1 - z) * n + z * h.

  This module (1) names that round once as a function of whole arrays (hStep) and checks that the program's stages
  are this function applied three times; (2) reads one round at the row b * 512 + i and column d, where it is exactly
  one entry (i, d) of the specification's round on graph b, with the exponential form of the cell; (3) composes the
  three rounds, so that the program's result is the specification's function G of the seven argument arrays.
-/
import proofs.«109102_g13975823582136_cont_week2b_684_16_alg».proof.Proof.Gen.ReferenceIdeal.Run
import proofs.«109102_g13975823582136_cont_week2b_684_16_alg».proof.Proof.Spec
import proofs.«109102_g13975823582136_cont_week2b_684_16_alg».proof.Proof.LibRowNet
import proofs.«109102_g13975823582136_cont_week2b_684_16_alg».proof.Proof.LibPlainDot
import proofs.«109102_g13975823582136_cont_week2b_684_16_alg».proof.Proof.LibContract
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Value Idealize.ShloMosaic Idealize.ShloMosaic.ValueIdx
  Idealize.ShloMosaic.StableHlo Cert.GatedGraph Cert.RowNet

/-! ## One round as a function of whole arrays -/

/-- The constant one at every entry of a [2048, 128] array. -/
def ones : FVec Ideal S2048x128 .f32 :=
  broadcastInDim S2048x128 ![] bcast_S_S2048x128 (constant (F := Ideal) S_ .f32 0x3F800000#32)

/-- Message matrix l of the stack of three, as a [128, 128] array. -/
def hW (l : Nat) (hs : S3x128x128.Slices ![l, 0, 0] S1x128x128) (W : FVec Ideal S3x128x128 .f32) : FVec Ideal S128x128 .f32 :=
  shapeCast _ (extractStridedSlice S1x128x128 ![l, 0, 0] W hs) shapeCasts_S1x128x128_S128x128

/-- The messages of all 2048 rows: h · Wm. -/
def hMsg (h : FVec Ideal S2048x128 .f32) (Wm : FVec Ideal S128x128 .f32) : FVec Ideal S2048x128 .f32 :=
  Host.dotGeneral dot_S2048x128_S128x128_S2048x128_1_0_0_1_n_n none h Wm

/-- The messages summed over incoming edges, graph by graph: the rows regrouped by graph, one product per graph
    contracting the source node, the rows stacked again. -/
def hAgg (A : FVec Ideal S4x512x512 .f32) (m : FVec Ideal S2048x128 .f32) : FVec Ideal S2048x128 .f32 :=
  shapeCast _ (Host.dotGeneral dot_S4x512x512_S4x512x128_S4x512x128_1_1_2_2_0_0 none A (shapeCast _ m shapeCasts_S2048x128_S4x512x128))
    shapeCasts_S4x512x128_S2048x128

/-- An affine gate map on all rows: x · Wgᵀ + bb. -/
def hLin (x : FVec Ideal S2048x128 .f32) (Wg : FVec Ideal S384x128 .f32) (bb : FVec Ideal S384 .f32) : FVec Ideal S2048x384 .f32 :=
  addf (Host.dotGeneral dot_S2048x128_S128x384_S2048x384_1_0_0_1_n_n none x (transpose S128x384 [1, 0] Wg transposes_S384x128_S128x384_1_0))
    (broadcastInDim S2048x384 ![0, 1] bcast_S1x384_S2048x384_0_1 (broadcastInDim S1x384 ![1] bcast_S384_S1x384_1 bb))

/-- A logistic gate on the column third starting at column o: 1 / (1 + exp (-(gi + gh))). -/
def hSig (o : Nat) (hs : S2048x384.Slices ![0, o] S2048x128) (gi gh : FVec Ideal S2048x384 .f32) : FVec Ideal S2048x128 .f32 :=
  Host.divf ones (addf ones (Host.exp (Host.negf (addf (extractStridedSlice S2048x128 ![0, o] gi hs) (extractStridedSlice S2048x128 ![0, o] gh hs)))))

/-- The new states from the two gate arrays and the old states: (1 - z) * tanh (gi_n + r * gh_n) + z * h. -/
def hCell (gi gh : FVec Ideal S2048x384 .f32) (h : FVec Ideal S2048x128 .f32) : FVec Ideal S2048x128 .f32 :=
  addf (mulf (subf ones (hSig 128 slices_S2048x384_S2048x128_0_128 gi gh))
      (Host.tanh (addf (extractStridedSlice S2048x128 ![0, 256] gi slices_S2048x384_S2048x128_0_256)
        (mulf (hSig 0 slices_S2048x384_S2048x128_0_0 gi gh) (extractStridedSlice S2048x128 ![0, 256] gh slices_S2048x384_S2048x128_0_256)))))
    (mulf (hSig 128 slices_S2048x384_S2048x128_0_128 gi gh) h)

/-- One round on the stacked states. -/
def hStep (A : FVec Ideal S4x512x512 .f32) (Wm : FVec Ideal S128x128 .f32) (Wih Whh : FVec Ideal S384x128 .f32)
    (bih bhh : FVec Ideal S384 .f32) (h : FVec Ideal S2048x128 .f32) : FVec Ideal S2048x128 .f32 :=
  hCell (hLin (hAgg A (hMsg h Wm)) Wih bih) (hLin h Whh bhh) h

/-! ## The program's stages are three applications of the round -/

section stages
variable (V0 : Valuation τ sig (Elt Ideal))

set_option maxRecDepth 8192 in
theorem v45_eq : res_main_v45 V0
    = hStep (res_main_v0 V0) (hW 0 slices_S3x128x128_S1x128x128_0_0_0 (V0 (Proc.devRef .tc main_arg2)))
        (V0 (Proc.devRef .tc main_arg3)) (V0 (Proc.devRef .tc main_arg4)) (V0 (Proc.devRef .tc main_arg5))
        (V0 (Proc.devRef .tc main_arg6)) (res_main_v1 V0) := rfl

set_option maxRecDepth 8192 in
theorem v89_eq : res_main_v89 V0
    = hStep (res_main_v0 V0) (hW 1 slices_S3x128x128_S1x128x128_1_0_0 (V0 (Proc.devRef .tc main_arg2)))
        (V0 (Proc.devRef .tc main_arg3)) (V0 (Proc.devRef .tc main_arg4)) (V0 (Proc.devRef .tc main_arg5))
        (V0 (Proc.devRef .tc main_arg6)) (res_main_v45 V0) := rfl

end stages

/-! ## The operations of a round read at an index -/

/-- Row b * 512 + i of the stacked states: node i of graph b. -/
def row (b : Fin 4) (i : Fin 512) : Fin 2048 := ⟨b.val * 512 + i.val, row_lt (A := 4) (B := 512) (R := 2048) rfl b i⟩

/-- The constant one, at every index, is the specification's one. -/
theorem ones_apply (j : S2048x128.Idx) : ones j = one := by
  unfold ones
  rw [broadcastInDim_scalar_apply]
  rfl

/-- Message matrix l read at (d, k) is the stack at (l, d, k). -/
theorem hW_apply (l : Nat) (hl : l < 3) (hs : S3x128x128.Slices ![l, 0, 0] S1x128x128) (W : FVec Ideal S3x128x128 .f32)
    (d k : Fin 128) : hW l hs W (ix2 d k) = W (ix3 (⟨l, hl⟩ : Fin 3) d k) := by
  unfold hW
  rw [shapeCast_1ab_ab_apply]
  exact extractStridedSlice_apply _ W hs _ (ix3 (⟨l, hl⟩ : Fin 3) d k) (fun a => by
    match a with
    | ⟨0, _⟩ => rfl
    | ⟨1, _⟩ => exact (Nat.zero_add _).symm
    | ⟨2, _⟩ => exact (Nat.zero_add _).symm)

/-- A row's message: m r k = ∑ d, h r d * Wm d k. -/
theorem hMsg_apply (h : FVec Ideal S2048x128 .f32) (Wm : FVec Ideal S128x128 .f32) (r : Fin 2048) (k : Fin 128) :
    hMsg h Wm (ix2 r k) = ∑ d : Fin 128, h (ix2 r d) * Wm (ix2 d k) := by
  unfold hMsg
  rw [Cert.Lib.PlainDot.eq_plain dot_S2048x128_S128x128_S2048x128_1_0_0_1_n_n rfl rfl rfl rfl rfl rfl]
  exact Cert.Lib.PlainDot.dotGeneral_plain_apply none h Wm (ix2 r k)

/-- The product per graph contracting the source node: at (b, i, k) the sum over j of A (b, j, i) * m (b, j, k). -/
theorem batched_apply (A : FVec Ideal S4x512x512 .f32) (m : FVec Ideal S4x512x128 .f32) (b : Fin 4) (i : Fin 512) (k : Fin 128) :
    Host.dotGeneral dot_S4x512x512_S4x512x128_S4x512x128_1_1_2_2_0_0 none A m (ix3 b i k)
      = ∑ j : Fin 512, A (ix3 b j i) * m (ix3 b j k) :=
  Cert.Lib.Contract.dotGeneral_single dot_S4x512x512_S4x512x128_S4x512x128_1_1_2_2_0_0 none 512 rfl rfl A m (ix3 b i k)
    (fun j => ix3 b j i) (fun j => ix3 b j k)
    (fun j q hq => funext fun a => Fin.ext (by
      match a with
      | ⟨0, _⟩ => rfl
      | ⟨1, _⟩ => exact ((dot_S4x512x512_S4x512x128_S4x512x128_1_1_2_2_0_0).lhsIdx_val_of_single rfl (ix3 b i k) q).trans hq
      | ⟨2, _⟩ => rfl))
    (fun j q hq => funext fun a => Fin.ext (by
      match a with
      | ⟨0, _⟩ => rfl
      | ⟨1, _⟩ => exact ((dot_S4x512x512_S4x512x128_S4x512x128_1_1_2_2_0_0).rhsIdx_val_of_single rfl (ix3 b i k) q).trans hq
      | ⟨2, _⟩ => rfl))

/-- The aggregated messages at node i of graph b: the sum over the source nodes j of graph b. -/
theorem hAgg_apply (A : FVec Ideal S4x512x512 .f32) (m : FVec Ideal S2048x128 .f32) (b : Fin 4) (i : Fin 512) (k : Fin 128) :
    hAgg A m (ix2 (row b i) k) = ∑ j : Fin 512, A (ix3 b j i) * m (ix2 (row b j) k) := by
  unfold hAgg
  rw [flatten_apply _ shapeCasts_S4x512x128_S2048x128 b i (row b i) k rfl, batched_apply]
  refine Finset.sum_congr rfl fun j _ => ?_
  rw [unflatten_apply m shapeCasts_S2048x128_S4x512x128 b j (row b j) k rfl]

/-- The bias vector broadcast to all rows, read at (r, c). -/
theorem bias_apply (bb : FVec Ideal S384 .f32) (r : Fin 2048) (c : Fin 384) :
    broadcastInDim S2048x384 ![0, 1] bcast_S1x384_S2048x384_0_1 (broadcastInDim S1x384 ![1] bcast_S384_S1x384_1 bb) (ix2 r c)
      = bb (ix1 c) :=
  (broadcastInDim_apply _ _ _ (ix2 r c) (ix2 (0 : Fin 1) c) (fun a => by
    match a with
    | ⟨0, _⟩ => rfl
    | ⟨1, _⟩ => rfl)).trans
  (broadcastInDim_apply _ _ bb (ix2 (0 : Fin 1) c) (ix1 c) (fun a => by
    match a with
    | ⟨0, _⟩ => rfl))

/-- An affine gate map at row r and column c. -/
theorem hLin_apply (x : FVec Ideal S2048x128 .f32) (Wg : FVec Ideal S384x128 .f32) (bb : FVec Ideal S384 .f32)
    (r : Fin 2048) (c : Fin 384) :
    hLin x Wg bb (ix2 r c) = (∑ k : Fin 128, x (ix2 r k) * Wg (ix2 c k)) + bb (ix1 c) := by
  unfold hLin
  rw [addf_apply, bias_apply, Cert.Lib.PlainDot.eq_plain dot_S2048x128_S128x384_S2048x384_1_0_0_1_n_n rfl rfl rfl rfl rfl rfl]
  refine congrArg (· + bb (ix1 c)) ?_
  refine (Cert.Lib.PlainDot.dotGeneral_plain_apply none x _ (ix2 r c)).trans (Finset.sum_congr rfl fun k _ => ?_)
  exact congrArg (x (ix2 r k) * ·) (transpose_ix2_apply Wg transposes_S384x128_S128x384_1_0 k c)

/-- A logistic gate at row r and column d of the third starting at column o: the exponential form of the logistic
    function of the two pre-activations at column c = o + d. -/
theorem hSig_apply (o : Nat) (hs : S2048x384.Slices ![0, o] S2048x128) (gi gh : FVec Ideal S2048x384 .f32)
    (r : Fin 2048) (d : Fin 128) (c : Fin 384) (hc : c.val = o + d.val) :
    hSig o hs gi gh (ix2 r d) = sigE (gi (ix2 r c) + gh (ix2 r c)) := by
  unfold hSig sigE
  show Ideal.div (ones (ix2 r d)) (ones (ix2 r d) + Ideal.exp (-(extractStridedSlice S2048x128 ![0, o] gi hs (ix2 r d)
      + extractStridedSlice S2048x128 ![0, o] gh hs (ix2 r d)))) = _
  rw [ones_apply, slice2_axis1_apply o gi hs r d c hc, slice2_axis1_apply o gh hs r d c hc]

/-- The new state at row r and column d is the specification's cell, in its exponential form, of the six gate
    pre-activations of that row at the columns d of the three thirds and of the old state. -/
theorem hCell_apply (gi gh : FVec Ideal S2048x384 .f32) (h : FVec Ideal S2048x128 .f32) (r : Fin 2048) (d : Fin 128) :
    hCell gi gh h (ix2 r d)
      = cellE (gi (ix2 r (colR d))) (gh (ix2 r (colR d))) (gi (ix2 r (colZ d))) (gh (ix2 r (colZ d)))
          (gi (ix2 r (colN d))) (gh (ix2 r (colN d))) (h (ix2 r d)) := by
  unfold hCell cellE
  show (ones (ix2 r d) - hSig 128 slices_S2048x384_S2048x128_0_128 gi gh (ix2 r d))
        * Ideal.tanh (extractStridedSlice S2048x128 ![0, 256] gi slices_S2048x384_S2048x128_0_256 (ix2 r d)
            + hSig 0 slices_S2048x384_S2048x128_0_0 gi gh (ix2 r d)
              * extractStridedSlice S2048x128 ![0, 256] gh slices_S2048x384_S2048x128_0_256 (ix2 r d))
      + hSig 128 slices_S2048x384_S2048x128_0_128 gi gh (ix2 r d) * h (ix2 r d) = _
  rw [ones_apply, hSig_apply 128 _ gi gh r d (colZ d) rfl, hSig_apply 0 _ gi gh r d (colR d) (Nat.zero_add _).symm,
    slice2_axis1_apply 256 gi _ r d (colN d) rfl, slice2_axis1_apply 256 gh _ r d (colN d) rfl]

/-! ## One round at a row is the specification's round on that row's graph -/

section round
variable (A : FVec Ideal S4x512x512 .f32) (Wm : FVec Ideal S128x128 .f32) (Wih Whh : FVec Ideal S384x128 .f32)
  (bih bhh : FVec Ideal S384 .f32) (h : FVec Ideal S2048x128 .f32) (b : Fin 4)

/-- The input gate map of node i of graph b, column c. -/
theorem gi_apply (i : Fin 512) (c : Fin 384) :
    hLin (hAgg A (hMsg h Wm)) Wih bih (ix2 (row b i) c)
      = gate (agg (fun j i => A (ix3 b j i)) (msg (fun i d => h (ix2 (row b i) d)) (fun d k => Wm (ix2 d k))))
          (fun c k => Wih (ix2 c k)) (fun c => bih (ix1 c)) i c := by
  rw [hLin_apply]
  show _ = (∑ k : Fin 128, (∑ j : Fin 512, A (ix3 b j i) * ∑ d : Fin 128, h (ix2 (row b j) d) * Wm (ix2 d k)) * Wih (ix2 c k)) + bih (ix1 c)
  refine congrArg (· + bih (ix1 c)) (Finset.sum_congr rfl fun k _ => ?_)
  rw [hAgg_apply]
  refine congrArg (· * Wih (ix2 c k)) (Finset.sum_congr rfl fun j _ => ?_)
  rw [hMsg_apply]

/-- The state gate map of node i of graph b, column c. -/
theorem gh_apply (i : Fin 512) (c : Fin 384) :
    hLin h Whh bhh (ix2 (row b i) c)
      = gate (fun i d => h (ix2 (row b i) d)) (fun c k => Whh (ix2 c k)) (fun c => bhh (ix1 c)) i c :=
  hLin_apply h Whh bhh (row b i) c

/-- One round at row b * 512 + i, column d: entry (i, d) of the specification's round on graph b. -/
theorem hStep_apply (i : Fin 512) (d : Fin 128) :
    hStep A Wm Wih Whh bih bhh h (ix2 (row b i) d)
      = step cellE (fun j i => A (ix3 b j i)) (fun d k => Wm (ix2 d k)) (fun c k => Wih (ix2 c k)) (fun c k => Whh (ix2 c k))
          (fun c => bih (ix1 c)) (fun c => bhh (ix1 c)) (fun i d => h (ix2 (row b i) d)) i d := by
  unfold hStep
  rw [hCell_apply, gi_apply, gi_apply, gi_apply, gh_apply, gh_apply, gh_apply]
  rfl

/-- The same as an equation between the state matrices of graph b. -/
theorem hStep_fun :
    (fun (i : Fin 512) (d : Fin 128) => hStep A Wm Wih Whh bih bhh h (ix2 (row b i) d))
      = step cellE (fun j i => A (ix3 b j i)) (fun d k => Wm (ix2 d k)) (fun c k => Wih (ix2 c k)) (fun c k => Whh (ix2 c k))
          (fun c => bih (ix1 c)) (fun c => bhh (ix1 c)) (fun i d => h (ix2 (row b i) d)) :=
  funext fun i => funext fun d => hStep_apply A Wm Wih Whh bih bhh h b i d

end round

/-- Message matrix l as a matrix of the specification. -/
theorem hW_fun (l : Nat) (hl : l < 3) (hs : S3x128x128.Slices ![l, 0, 0] S1x128x128) (W : FVec Ideal S3x128x128 .f32) :
    (fun (d k : Fin 128) => hW l hs W (ix2 d k)) = fun d k => W (ix3 (⟨l, hl⟩ : Fin 3) d k) :=
  funext fun d => funext fun k => hW_apply l hl hs W d k

/-- The stacked input states, graph b's rows. -/
theorem flat_fun (x : FVec Ideal S4x512x128 .f32) (b : Fin 4) :
    (fun (i : Fin 512) (d : Fin 128) => shapeCast S2048x128 x shapeCasts_S4x512x128_S2048x128 (ix2 (row b i) d))
      = fun i d => x (ix3 b i d) :=
  funext fun i => funext fun d => flatten_apply x shapeCasts_S4x512x128_S2048x128 b i (row b i) d rfl

/-! ## Three rounds -/

/-- Three rounds on the stacked states, regrouped by graph and read at (b, i, d): entry (i, d) of the specification's
    three rounds on graph b. -/
theorem three_rounds (A : FVec Ideal S4x512x512 .f32) (W : FVec Ideal S3x128x128 .f32) (Wih Whh : FVec Ideal S384x128 .f32)
    (bih bhh : FVec Ideal S384 .f32) (x : FVec Ideal S4x512x128 .f32) (b : Fin 4) (i : Fin 512) (d : Fin 128) :
    shapeCast S4x512x128
        (hStep A (hW 2 slices_S3x128x128_S1x128x128_2_0_0 W) Wih Whh bih bhh
          (hStep A (hW 1 slices_S3x128x128_S1x128x128_1_0_0 W) Wih Whh bih bhh
            (hStep A (hW 0 slices_S3x128x128_S1x128x128_0_0_0 W) Wih Whh bih bhh
              (shapeCast S2048x128 x shapeCasts_S4x512x128_S2048x128))))
        shapeCasts_S2048x128_S4x512x128 (ix3 b i d)
      = net cellE (fun j i => A (ix3 b j i)) (fun l d k => W (ix3 l d k)) (fun c k => Wih (ix2 c k)) (fun c k => Whh (ix2 c k))
          (fun c => bih (ix1 c)) (fun c => bhh (ix1 c)) (fun i d => x (ix3 b i d)) i d := by
  rw [unflatten_apply _ shapeCasts_S2048x128_S4x512x128 b i (row b i) d rfl]
  refine (congrFun (congrFun (hStep_fun A _ Wih Whh bih bhh _ b) i) d).trans ?_
  rw [hStep_fun, hStep_fun, flat_fun, hW_fun 0 (by decide), hW_fun 1 (by decide), hW_fun 2 (by decide)]
  rfl

/-! ## The program's result -/

section result
variable (V0 : Valuation τ sig (Elt Ideal))

set_option maxRecDepth 8192 in
/-- The program's result is three applications of the round to the stacked input states, regrouped by graph. -/
theorem result_eq :
    shapeCast _ (addf (mulf (subf (broadcastInDim S2048x128 ![] bcast_S_S2048x128 (constant S_ .f32 0x3F800000#32)) (res_main_v125 V0)) (Host.tanh (addf (extractStridedSlice S2048x128 ![0, 256] (res_main_v100 V0) slices_S2048x384_S2048x128_0_256) (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_v100 V0) slices_S2048x384_S2048x128_0_0) (extractStridedSlice S2048x128 ![0, 0] (res_main_v105 V0) slices_S2048x384_S2048x128_0_0)))))) (extractStridedSlice S2048x128 ![0, 256] (res_main_v105 V0) slices_S2048x384_S2048x128_0_256))))) (mulf (res_main_v125 V0) (res_main_v89 V0))) shapeCasts_S2048x128_S4x512x128
      = shapeCast S4x512x128
          (hStep (res_main_v0 V0) (hW 2 slices_S3x128x128_S1x128x128_2_0_0 (V0 (Proc.devRef .tc main_arg2)))
            (V0 (Proc.devRef .tc main_arg3)) (V0 (Proc.devRef .tc main_arg4)) (V0 (Proc.devRef .tc main_arg5)) (V0 (Proc.devRef .tc main_arg6))
            (hStep (res_main_v0 V0) (hW 1 slices_S3x128x128_S1x128x128_1_0_0 (V0 (Proc.devRef .tc main_arg2)))
              (V0 (Proc.devRef .tc main_arg3)) (V0 (Proc.devRef .tc main_arg4)) (V0 (Proc.devRef .tc main_arg5)) (V0 (Proc.devRef .tc main_arg6))
              (hStep (res_main_v0 V0) (hW 0 slices_S3x128x128_S1x128x128_0_0_0 (V0 (Proc.devRef .tc main_arg2)))
                (V0 (Proc.devRef .tc main_arg3)) (V0 (Proc.devRef .tc main_arg4)) (V0 (Proc.devRef .tc main_arg5)) (V0 (Proc.devRef .tc main_arg6))
                (shapeCast S2048x128 (V0 (Proc.devRef .tc main_arg0)) shapeCasts_S4x512x128_S2048x128))))
          shapeCasts_S2048x128_S4x512x128 := by
  rw [← show res_main_v1 V0 = shapeCast S2048x128 (V0 (Proc.devRef .tc main_arg0)) shapeCasts_S4x512x128_S2048x128 from rfl,
    ← v45_eq, ← v89_eq]
  rfl

set_option maxRecDepth 8192 in
/-- The reference program's result is the specification's three rounds, in the exponential form of the cell, on the
    batch of four graphs: the function G of the seven argument arrays. -/
theorem ref_result :
    shapeCast _ (addf (mulf (subf (broadcastInDim S2048x128 ![] bcast_S_S2048x128 (constant S_ .f32 0x3F800000#32)) (res_main_v125 V0)) (Host.tanh (addf (extractStridedSlice S2048x128 ![0, 256] (res_main_v100 V0) slices_S2048x384_S2048x128_0_256) (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_v100 V0) slices_S2048x384_S2048x128_0_0) (extractStridedSlice S2048x128 ![0, 0] (res_main_v105 V0) slices_S2048x384_S2048x128_0_0)))))) (extractStridedSlice S2048x128 ![0, 256] (res_main_v105 V0) slices_S2048x384_S2048x128_0_256))))) (mulf (res_main_v125 V0) (res_main_v89 V0))) shapeCasts_S2048x128_S4x512x128
      = G cellE (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) := by
  rw [result_eq]
  funext idx
  rw [eq_ix3 idx]
  exact three_rounds (res_main_v0 V0) (V0 (Proc.devRef .tc main_arg2)) (V0 (Proc.devRef .tc main_arg3))
    (V0 (Proc.devRef .tc main_arg4)) (V0 (Proc.devRef .tc main_arg5)) (V0 (Proc.devRef .tc main_arg6))
    (V0 (Proc.devRef .tc main_arg0)) (idx 0) (idx 1) (idx 2)

end result

end Cert.ReferenceIdeal.RefValue

end
-- ==== Proof.GateLaws.lean ====
/-
  The two ways of writing the gated update agree on real inputs.

  The cell is written once with the logistic function as 1/2 * tanh (s/2) + 1/2 and the blend as
  h + (1 - z) * (n - h), and once with the logistic function as 1 / (1 + exp (-s)) and the blend as
  (1 - z) * n + z * h. On the real numbers these are the same: with e = exp (s/2),

      1/2 * (e - 1/e) / (e + 1/e) + 1/2 = e^2 / (e^2 + 1) = 1 / (1 + 1/e^2),

  and h + (1 - z) * (n - h) = (1 - z) * n + z * h by distributing. On the extended reals neither identity
  survives at the infinities (∞ - ∞ is not 0 there), so nothing is claimed for arbitrary extended reals.
  Instead every quantity of the network is shown to be a real number: the inputs are real by hypothesis,
  finite sums and products of reals are real, tanh and exp of a real are real, and 1 + exp (-s) is positive,
  so dividing by it is multiplying by a real. Each entry of each round is therefore a real number at which
  the two cells agree, and three rounds give the same result with either cell.
-/
import proofs.«109102_g13975823582136_cont_week2b_684_16_alg».proof.Proof.Spec
import Idealize.ShloMosaic.Lib.IdealHost
import Mathlib.Tactic

noncomputable section

open scoped BigOperators

namespace Cert.GatedGraph

open Idealize.ShloMosaic

/-! ### The two constants -/

/-- The float literal for one half denotes the real 1/2. -/
theorem half_eq : half = ((1 / 2 : ℝ) : EReal) := by
  unfold half
  simp [Ideal.ofBits, Ideal.ieee, -EReal.coe_mul]; norm_num

/-- The float literal for one denotes the real 1. -/
theorem one_eq : one = ((1 : ℝ) : EReal) := by
  unfold one
  rw [Ideal.ofBits_one_f32, EReal.coe_one]

/-! ### Real numbers are closed under the operations of the network -/

theorem IsR.coe (r : ℝ) : IsR (r : EReal) := ⟨r, rfl⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

/-- A finite sum of real numbers is a real number. -/
theorem IsR.sum {ι : Type*} (s : Finset ι) (f : ι → EReal) (hf : ∀ i ∈ s, IsR (f i)) :
    IsR (∑ i ∈ s, f i) := by
  classical
  induction s using Finset.induction_on with
  | empty => exact ⟨0, by simp⟩
  | insert a s ha ih =>
    rw [Finset.sum_insert ha]
    exact IsR.add (hf a (Finset.mem_insert_self a s))
      (ih (fun i hi => hf i (Finset.mem_insert_of_mem hi)))

theorem msg_isR {h : Mat 512 128} {W : Mat 128 128} (hh : ∀ i d, IsR (h i d)) (hW : ∀ d k, IsR (W d k))
    (j : Fin 512) (k : Fin 128) : IsR (msg h W j k) :=
  IsR.sum _ _ (fun d _ => IsR.mul (hh j d) (hW d k))

theorem agg_isR {A : Mat 512 512} {m : Mat 512 128} (hA : ∀ j i, IsR (A j i)) (hm : ∀ j k, IsR (m j k))
    (i : Fin 512) (k : Fin 128) : IsR (agg A m i k) :=
  IsR.sum _ _ (fun j _ => IsR.mul (hA j i) (hm j k))

theorem gate_isR {u : Mat 512 128} {Wg : Mat 384 128} {b : Fin 384 → EReal} (hu : ∀ i k, IsR (u i k))
    (hWg : ∀ c k, IsR (Wg c k)) (hb : ∀ c, IsR (b c)) (i : Fin 512) (c : Fin 384) : IsR (gate u Wg b i c) :=
  IsR.add (IsR.sum _ _ (fun k _ => IsR.mul (hu i k) (hWg c k))) (hb c)

/-! ### The logistic function on the reals -/

/-- The logistic function of a real number. -/
def sg (s : ℝ) : ℝ := 1 / (1 + Real.exp (-s))

/-- 1/2 * tanh (s/2) + 1/2 is the logistic function: with e = exp (s/2) both sides are e^2 / (e^2 + 1). -/
theorem sg_tanh (s : ℝ) : 1 / 2 * Real.tanh (1 / 2 * s) + 1 / 2 = sg s := by
  unfold sg
  have hs : Real.exp (-s) = Real.exp (-(1 / 2 * s)) * Real.exp (-(1 / 2 * s)) := by
    rw [← Real.exp_add]; congr 1; ring
  have hn : Real.exp (-(1 / 2 * s)) = (Real.exp (1 / 2 * s))⁻¹ := Real.exp_neg _
  have hp : 0 < Real.exp (1 / 2 * s) := Real.exp_pos _
  rw [Real.tanh_eq_sinh_div_cosh, Real.sinh_eq, Real.cosh_eq, hs, hn]
  field_simp
  ring

/-- The logistic function written through tanh, at a real number. -/
theorem sigT_coe (s : ℝ) : sigT (s : EReal) = ((sg s : ℝ) : EReal) := by
  unfold sigT
  rw [half_eq, ← EReal.coe_mul, Ideal.tanh_coe, ← EReal.coe_mul, ← EReal.coe_add, sg_tanh]

/-- The logistic function written through exp, at a real number. -/
theorem sigE_coe (s : ℝ) : sigE (s : EReal) = ((sg s : ℝ) : EReal) := by
  unfold sigE
  have hpos : (0 : ℝ) < 1 + Real.exp (-s) := by positivity
  rw [one_eq, ← EReal.coe_neg, Ideal.exp_coe, ← EReal.coe_add, Ideal.div_coe hpos.ne', ← EReal.coe_mul]
  unfold sg
  rw [one_mul]

/-! ### One cell -/

/-- The first form of the cell at real numbers, as a real number. -/
theorem cellT_coe (ir hr iz hz inn hn h : ℝ) :
    cellT (ir : EReal) hr iz hz inn hn h
      = ((h + (1 - sg (iz + hz)) * (Real.tanh (inn + sg (ir + hr) * hn) - h) : ℝ) : EReal) := by
  unfold cellT
  rw [one_eq, ← EReal.coe_add iz hz, ← EReal.coe_add ir hr, sigT_coe, sigT_coe, ← EReal.coe_mul, ← EReal.coe_add,
    Ideal.tanh_coe, ← EReal.coe_sub, ← EReal.coe_sub, ← EReal.coe_mul, ← EReal.coe_add]

/-- The second form of the cell at real numbers, as a real number. -/
theorem cellE_coe (ir hr iz hz inn hn h : ℝ) :
    cellE (ir : EReal) hr iz hz inn hn h
      = (((1 - sg (iz + hz)) * Real.tanh (inn + sg (ir + hr) * hn) + sg (iz + hz) * h : ℝ) : EReal) := by
  unfold cellE
  rw [one_eq, ← EReal.coe_add iz hz, ← EReal.coe_add ir hr, sigE_coe, sigE_coe, ← EReal.coe_mul, ← EReal.coe_add,
    Ideal.tanh_coe, ← EReal.coe_sub, ← EReal.coe_mul, ← EReal.coe_mul, ← EReal.coe_add]

/-- At real arguments the two forms of the cell have the same value, and it is a real number. -/
theorem cell_agree {ir hr iz hz inn hn h : EReal} (h1 : IsR ir) (h2 : IsR hr) (h3 : IsR iz) (h4 : IsR hz)
    (h5 : IsR inn) (h6 : IsR hn) (h7 : IsR h) :
    cellT ir hr iz hz inn hn h = cellE ir hr iz hz inn hn h ∧ IsR (cellT ir hr iz hz inn hn h) := by
  obtain ⟨a1, rfl⟩ := h1
  obtain ⟨a2, rfl⟩ := h2
  obtain ⟨a3, rfl⟩ := h3
  obtain ⟨a4, rfl⟩ := h4
  obtain ⟨a5, rfl⟩ := h5
  obtain ⟨a6, rfl⟩ := h6
  obtain ⟨a7, rfl⟩ := h7
  refine ⟨?_, ?_⟩
  · rw [cellT_coe, cellE_coe]
    congr 1
    ring
  · rw [cellT_coe]
    exact IsR.coe _

/-! ### One round, and three -/

/-- One round from real node states: both cells give the same states, and they are real. -/
theorem step_agree {A : Mat 512 512} {W : Mat 128 128} {Wih Whh : Mat 384 128} {bih bhh : Fin 384 → EReal}
    {h : Mat 512 128} (hA : ∀ j i, IsR (A j i)) (hW : ∀ d k, IsR (W d k)) (hWih : ∀ c k, IsR (Wih c k))
    (hWhh : ∀ c k, IsR (Whh c k)) (hbih : ∀ c, IsR (bih c)) (hbhh : ∀ c, IsR (bhh c)) (hh : ∀ i d, IsR (h i d)) :
    step cellT A W Wih Whh bih bhh h = step cellE A W Wih Whh bih bhh h ∧
      ∀ i d, IsR (step cellT A W Wih Whh bih bhh h i d) := by
  have hi : ∀ i c, IsR (gate (agg A (msg h W)) Wih bih i c) :=
    gate_isR (agg_isR hA (msg_isR hh hW)) hWih hbih
  have hg : ∀ i c, IsR (gate h Whh bhh i c) := gate_isR hh hWhh hbhh
  have key : ∀ i d, step cellT A W Wih Whh bih bhh h i d = step cellE A W Wih Whh bih bhh h i d ∧
      IsR (step cellT A W Wih Whh bih bhh h i d) := fun i d =>
    cell_agree (hi i (colR d)) (hg i (colR d)) (hi i (colZ d)) (hg i (colZ d)) (hi i (colN d)) (hg i (colN d))
      (hh i d)
  exact ⟨funext fun i => funext fun d => (key i d).1, fun i d => (key i d).2⟩

/-- Three rounds from real inputs give the same node states with either form of the cell. -/
theorem net_cells_agree (A : Mat 512 512) (W : Fin 3 → Mat 128 128) (Wih Whh : Mat 384 128)
    (bih bhh : Fin 384 → EReal) (x : Mat 512 128)
    (hA : ∀ j i, IsR (A j i)) (hW : ∀ l d k, IsR (W l d k)) (hWih : ∀ c k, IsR (Wih c k))
    (hWhh : ∀ c k, IsR (Whh c k)) (hbih : ∀ c, IsR (bih c)) (hbhh : ∀ c, IsR (bhh c)) (hx : ∀ i d, IsR (x i d)) :
    net cellT A W Wih Whh bih bhh x = net cellE A W Wih Whh bih bhh x := by
  unfold net
  obtain ⟨e0, r0⟩ := step_agree hA (hW 0) hWih hWhh hbih hbhh hx
  obtain ⟨e1, r1⟩ := step_agree hA (hW 1) hWih hWhh hbih hbhh r0
  obtain ⟨e2, _⟩ := step_agree hA (hW 2) hWih hWhh hbih hbhh r1
  rw [e2, e1, e0]

end Cert.GatedGraph

end
-- ==== Proof.FiniteInputs.lean ====
/-
  Finite inputs are real inputs.

  The certificate's precondition computes, for each of its six float arguments a, the conjunction over all entries
  of the test |a i| < +∞, and then the conjunction of the six results; it is assumed to come out true. On the
  extended reals |y| is max y (-y) and +∞ is the top element, so the test at one entry excludes both ⊤ (there
  |⊤| = ⊤ is not below ⊤) and ⊥ (there |⊥| = max ⊥ ⊤ = ⊤ again), and what is left of the extended reals is the
  real line: every entry of every float argument is (the image of) a real number.

  The steps: a conjunction of single bits that is 1 has both bits 1, six times over; an and-reduction over all
  axes that is 1 met a 1 at every index; the bit at index i is the comparison max (a i) (-(a i)) < ⊤; and a case
  split on the extended real a i.
-/
import proofs.«109102_g13975823582136_cont_week2b_684_16_alg».proof.Proof.Spec
import proofs.«109102_g13975823582136_cont_week2b_684_16_alg».proof.Proof.Gen.Pre_finite_inputs
import Idealize.ShloMosaic.Lib.ReduceAll
import Idealize.ShloMosaic.Lib.IdealHost

namespace Cert.GatedGraph.Finite

open Idealize.ShloMosaic Idealize.ShloMosaic.ValueIdx
open Cert.Pre_finite_inputs

/-- The shape with no axes has exactly one index. -/
instance subsingleton_scalar_idx : Subsingleton S_.Idx := ⟨fun a b => funext fun d => d.elim0⟩

/-- An extended real whose absolute value max y (-y) is strictly below the float pattern of +∞ is a real number:
    that pattern denotes ⊤, and both ⊤ and ⊥ have absolute value ⊤. -/
theorem isR_of_abs_lt_inf (y : EReal)
    (h : Ideal.cmp .olt (max y (-y)) (Ideal.ofBits .f32 0x7F800000#32) = 1#1) : IsR y := by
  have htop : Ideal.ofBits .f32 0x7F800000#32 = (⊤ : EReal) := by simp [Ideal.ofBits, Ideal.ieee]
  rw [htop] at h
  induction y using EReal.rec with
  | bot => simp [Ideal.cmp] at h
  | coe r => exact ⟨r, rfl⟩
  | top => simp [Ideal.cmp] at h

/-- Over any shape: if the and-reduction over all axes of the entrywise test |a i| < +∞ is 1, then every entry of a
    is a real number. The reduction's result has a single index, so each operand bit reduces into it and is 1; the
    bit at i is, by definition of the entrywise operations, the comparison of max (a i) (-(a i)) with the pattern
    of +∞. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf a) (broadcastInDim s ![] hb (constant S_ .f32 0x7F800000#32)))
          init hr hu ix0 = 1#1) :
    ∀ i, IsR (a i) := by
  intro i
  have hi := Host.reduce_andi_all _ init hr hu ix0 e i
  apply isR_of_abs_lt_inf
  rw [← hi]
  rfl

/-- The precondition holds, so all six float arguments have only real entries. The precondition's single result
    bit is a left-nested conjunction of six bits, one and-reduction per float argument (the integer argument is
    not tested); each is 1, and `all_real` reads each one back. -/
theorem reals_of_finite_inputs (x : FVec Ideal S4x512x128 .f32) (adj : IVec S4x512x512 32)
    (W : FVec Ideal S3x128x128 .f32) (Wih Whh : FVec Ideal S384x128 .f32) (bih bhh : FVec Ideal S384 .f32)
    (h : Cert.Pre_finite_inputs.fn (F := Ideal) x adj W Wih Whh bih bhh = fun _ => 1#1) :
    (∀ i, Cert.GatedGraph.IsR (x i)) ∧ (∀ i, Cert.GatedGraph.IsR (W i)) ∧ (∀ i, Cert.GatedGraph.IsR (Wih i)) ∧
      (∀ i, Cert.GatedGraph.IsR (Whh i)) ∧ (∀ i, Cert.GatedGraph.IsR (bih i)) ∧ (∀ i, Cert.GatedGraph.IsR (bhh i)) := by
  have h0 := congrFun h ix0
  dsimp only [fn, fn_part1] at h0
  simp only [andi, IntOp.andi_eq_one] at h0
  obtain ⟨⟨⟨⟨⟨hx, hW⟩, hWih⟩, hWhh⟩, hbih⟩, hbhh⟩ := h0
  exact ⟨all_real x _ _ _ _ hx, all_real W _ _ _ _ hW, all_real Wih _ _ _ _ hWih, all_real Whh _ _ _ _ hWhh,
    all_real bih _ _ _ _ hbih, all_real bhh _ _ _ _ hbhh⟩

end Cert.GatedGraph.Finite
-- ==== Proof.lean ====
/-
  A fused kernel for three rounds of a gated graph update on a batch of four graphs, against the plain array
  program that computes the same rounds on the whole batch at once.

  Both programs, read on the extended reals, compute per graph and per round the messages h·W, their sums over
  incoming edges, two affine gate maps, the reset and update gates, the candidate state and the blended new state
  (Proof/Spec.lean states the round once). They differ in two places only: the kernel writes the logistic gate as
  1/2·tanh(s/2) + 1/2 and the blend as h + (1 − z)(n − h); the array program writes 1/(1 + exp(−s)) and
  (1 − z)n + z h. On real numbers these agree; at the infinities they do not, so the finiteness of the float inputs
  is used: every float input is real (Proof/FiniteInputs.lean), the edge weights are integers, hence every
  intermediate value is real, and the two forms agree (Proof/GateLaws.lean).

  The kernel's result array is the whole-array function with the tanh form (Proof/KernelRound.lean: one round of the
  body at an entry; Proof/KernelArray.lean: the body's three rounds, what each grid point writes back, and the cover
  of the result by the four graphs' blocks). The array program's result is the same function with the exp form
  (Proof/RefRead.lean: its stages read at an index, each round at a flat row being the round of that row's graph).
  The idealized kernel is the kernel's own text read on the extended reals: nothing was rewritten, and that claim is
  trivial.
-/
import proofs.«109102_g13975823582136_cont_week2b_684_16_alg».proof.Defs
import proofs.«109102_g13975823582136_cont_week2b_684_16_alg».proof.Proof.Gen.Kernel
import proofs.«109102_g13975823582136_cont_week2b_684_16_alg».proof.Proof.Gen.Kernel.Skeleton
import proofs.«109102_g13975823582136_cont_week2b_684_16_alg».proof.Proof.Gen.Kernel.Launch
import proofs.«109102_g13975823582136_cont_week2b_684_16_alg».proof.Proof.Gen.Kernel.Points
import proofs.«109102_g13975823582136_cont_week2b_684_16_alg».proof.Proof.Gen.Kernel.Frame
import proofs.«109102_g13975823582136_cont_week2b_684_16_alg».proof.Proof.Gen.KernelIdeal
import proofs.«109102_g13975823582136_cont_week2b_684_16_alg».proof.Proof.Gen.KernelIdeal.Skeleton
import proofs.«109102_g13975823582136_cont_week2b_684_16_alg».proof.Proof.Gen.KernelIdeal.Launch
import proofs.«109102_g13975823582136_cont_week2b_684_16_alg».proof.Proof.Gen.KernelIdeal.Points
import proofs.«109102_g13975823582136_cont_week2b_684_16_alg».proof.Proof.Gen.KernelIdeal.Frame
import proofs.«109102_g13975823582136_cont_week2b_684_16_alg».proof.Proof.Gen.ReferenceIdeal
import proofs.«109102_g13975823582136_cont_week2b_684_16_alg».proof.Proof.Gen.Pre_finite_inputs
import proofs.«109102_g13975823582136_cont_week2b_684_16_alg».proof.Proof.Gen.KernelIdeal.Value
import proofs.«109102_g13975823582136_cont_week2b_684_16_alg».proof.Proof.Gen.ReferenceIdeal.Run
import proofs.«109102_g13975823582136_cont_week2b_684_16_alg».proof.Proof.KernelArray
import proofs.«109102_g13975823582136_cont_week2b_684_16_alg».proof.Proof.RefRead
import proofs.«109102_g13975823582136_cont_week2b_684_16_alg».proof.Proof.GateLaws
import proofs.«109102_g13975823582136_cont_week2b_684_16_alg».proof.Proof.FiniteInputs
import Idealize.ShloMosaic.Adequacy
import Idealize.ShloMosaic.Init

noncomputable section

namespace Cert.Proof

open Idealize.ShloMosaic Idealize.ShloMosaic.ValueIdx Idealize.SL.Sem Cert.GatedGraph

/-- On finite float inputs the whole-array function is the same with either form of the cell: every float entry is
    real, every edge weight is an integer, so the two forms of the gate and of the blend agree round by round. -/
theorem G_forms_agree (x : FVec Ideal Cert.Pre_finite_inputs.S4x512x128 .f32) (adj : IVec Cert.Pre_finite_inputs.S4x512x512 32)
    (W : FVec Ideal Cert.Pre_finite_inputs.S3x128x128 .f32) (Wih Whh : FVec Ideal Cert.Pre_finite_inputs.S384x128 .f32)
    (bih bhh : FVec Ideal Cert.Pre_finite_inputs.S384 .f32)
    (h : Cert.Pre_finite_inputs.fn (F := Ideal) x adj W Wih Whh bih bhh = fun _ => 1#1) :
    G cellT x adj W Wih Whh bih bhh = G cellE x adj W Wih Whh bih bhh := by
  obtain ⟨hx, hW, hWih, hWhh, hbih, hbhh⟩ := Cert.GatedGraph.Finite.reals_of_finite_inputs x adj W Wih Whh bih bhh h
  funext idx
  exact congrFun (congrFun
    (net_cells_agree (edges adj (idx 0)) (fun l d k => W (ix3 l d k)) (fun c k => Wih (ix2 c k)) (fun c k => Whh (ix2 c k))
      (fun c => bih (ix1 c)) (fun c => bhh (ix1 c)) (fun i d => x (ix3 (idx 0) i d))
      (fun j i => ⟨_, rfl⟩) (fun l d k => hW _) (fun c k => hWih _) (fun c k => hWhh _) (fun c => hbih _) (fun c => hbhh _)
      (fun i d => hx _)) (idx 1)) (idx 2)

theorem frame_kernel : Cert.frame_Kernel := fun m ρ _ => Cert.Kernel.Gen.frame m ρ

theorem frame_kernelIdeal : Cert.frame_KernelIdeal := fun m ρ _ => Cert.KernelIdeal.Gen.frame m ρ

/-- The array program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

set_option maxRecDepth 8192 in
/-- Both programs end with the whole-array function of the arguments: the kernel with the tanh form, the array
    program with the exp form of the same arguments, and on finite inputs these are one function. -/
theorem algebraic : Cert.algebraic_KernelIdeal_ReferenceIdeal := by
  intro m ρ m' ρ' hpre hagree
  refine ⟨fun c => Cert.KernelIdeal.Whole.GT m c, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.RefValue.ref_result]
  obtain ⟨a0, a1, a2, a3, a4, a5, a6⟩ := hagree c
  show G cellE (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
    = Cert.KernelIdeal.Whole.GT m c
  rw [a0, a1, a2, a3, a4, a5, a6]
  exact (G_forms_agree _ _ _ _ _ _ _ (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
